-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S13x256x512 : Shape := ⟨3, ![13, 256, 512]⟩
abbrev S12x256x512 : Shape := ⟨3, ![12, 256, 512]⟩
abbrev S12x256x128 : Shape := ⟨3, ![12, 256, 128]⟩
abbrev S_ : Shape := ⟨0, ![]⟩

class Facts : Prop where
  bcast_S_S13x256x512 : S_.BroadcastsInDim S13x256x512 (![] : Fin 0 → Fin S13x256x512.rank)
  reducesTo_S13x256x512_S_d0_1_2 : S13x256x512.ReducesTo [0, 1, 2] S_
  h_S_ : 0 < S_.numel
  bcast_S_S12x256x512 : S_.BroadcastsInDim S12x256x512 (![] : Fin 0 → Fin S12x256x512.rank)
  reducesTo_S12x256x512_S_d0_1_2 : S12x256x512.ReducesTo [0, 1, 2] S_

variable [Facts]

def fn {F : FTy → Type} [FloatOps F] (main_arg0 : FVec F S13x256x512 .f32) (main_arg1 : FVec F S12x256x512 .f32) (main_arg2 : IVec S12x256x128 32) (main_arg3 : IVec S12x256x128 32) : IVec S_ 1 :=
  let main_v0 : FVec F S13x256x512 .f32 := Host.absf main_arg0
  let main_cst : FVec F S_ .f32 := constant S_ .f32 0x7F800000#32
  let main_v1 : FVec F S13x256x512 .f32 := broadcastInDim S13x256x512 ![] bcast_S_S13x256x512 main_cst
  let main_v2 : IVec S13x256x512 1 := cmpf .olt main_v0 main_v1
  let main_c : IVec S_ 1 := constantI S_ 1 1#1
  let main_v3 : IVec S_ 1 := (fun x v => Host.reduce IntOp.andi x v reducesTo_S13x256x512_S_d0_1_2 h_S_) main_v2 main_c
  let main_v4 : FVec F S12x256x512 .f32 := Host.absf main_arg1
  let main_cst_0 : FVec F S_ .f32 := constant S_ .f32 0x7F800000#32
  let main_v5 : FVec F S12x256x512 .f32 := broadcastInDim S12x256x512 ![] bcast_S_S12x256x512 main_cst_0
  let main_v6 : IVec S12x256x512 1 := cmpf .olt main_v4 main_v5
  let main_c_1 : IVec S_ 1 := constantI S_ 1 1#1
  let main_v7 : IVec S_ 1 := (fun x v => Host.reduce IntOp.andi x v reducesTo_S12x256x512_S_d0_1_2 h_S_) main_v6 main_c_1
  let main_v8 : IVec S_ 1 := andi main_v3 main_v7
  main_v8
-- ==== Kernel.lean ====
abbrev S13x256x512 : Shape := ⟨3, ![13, 256, 512]⟩
abbrev S12x256x512 : Shape := ⟨3, ![12, 256, 512]⟩
abbrev S12x256x128 : Shape := ⟨3, ![12, 256, 128]⟩
abbrev S1x256x512 : Shape := ⟨3, ![1, 256, 512]⟩
abbrev S_ : Shape := ⟨0, ![]⟩
abbrev S12x256x128x1 : Shape := ⟨4, ![12, 256, 128, 1]⟩
abbrev S12x256x128x2 : Shape := ⟨4, ![12, 256, 128, 2]⟩
abbrev S12x256x128x512 : Shape := ⟨4, ![12, 256, 128, 512]⟩
abbrev S256x12 : Shape := ⟨2, ![256, 12]⟩
abbrev S1x32x512 : Shape := ⟨3, ![1, 32, 512]⟩
abbrev S1x32x128x512 : Shape := ⟨4, ![1, 32, 128, 512]⟩
abbrev S32x12 : Shape := ⟨2, ![32, 12]⟩
abbrev S32x512 : Shape := ⟨2, ![32, 512]⟩
abbrev S32 : Shape := ⟨1, ![32]⟩
abbrev S1x32x32x512 : Shape := ⟨4, ![1, 32, 32, 512]⟩
abbrev S32x32x512 : Shape := ⟨3, ![32, 32, 512]⟩
abbrev S32x1x512 : Shape := ⟨3, ![32, 1, 512]⟩
abbrev S32x32 : Shape := ⟨2, ![32, 32]⟩
abbrev S32x1 : Shape := ⟨2, ![32, 1]⟩
abbrev S1x12 : Shape := ⟨2, ![1, 12]⟩
abbrev S256 : Shape := ⟨1, ![256]⟩
abbrev S12 : Shape := ⟨1, ![12]⟩

abbrev nBuf : Space → Nat
  | .hbm => 38
  | .vmem => 10
  | .smem => 0
  | _ => 0

abbrev bufTy : (tb : Table) → Fin (tcTables nBuf tb) → BufTy
  | .hbm, ⟨0, _⟩ => ⟨S13x256x512, .f32⟩
  | .hbm, ⟨1, _⟩ => ⟨S12x256x512, .f32⟩
  | .hbm, ⟨2, _⟩ => ⟨S12x256x128, .i32⟩
  | .hbm, ⟨3, _⟩ => ⟨S12x256x128, .i32⟩
  | .hbm, ⟨4, _⟩ => ⟨S1x256x512, .f32⟩
  | .hbm, ⟨5, _⟩ => ⟨S13x256x512, .f32⟩
  | .hbm, ⟨6, _⟩ => ⟨S_, .i32⟩
  | .hbm, ⟨7, _⟩ => ⟨S12x256x128, .i32⟩
  | .hbm, ⟨8, _⟩ => ⟨S12x256x128, .i1⟩
  | .hbm, ⟨9, _⟩ => ⟨S_, .i32⟩
  | .hbm, ⟨10, _⟩ => ⟨S12x256x128, .i32⟩
  | .hbm, ⟨11, _⟩ => ⟨S12x256x128, .i32⟩
  | .hbm, ⟨12, _⟩ => ⟨S12x256x128, .i32⟩
  | .hbm, ⟨13, _⟩ => ⟨S_, .i32⟩
  | .hbm, ⟨14, _⟩ => ⟨S12x256x128, .i32⟩
  | .hbm, ⟨15, _⟩ => ⟨S12x256x128, .i1⟩
  | .hbm, ⟨16, _⟩ => ⟨S_, .i32⟩
  | .hbm, ⟨17, _⟩ => ⟨S12x256x128, .i32⟩
  | .hbm, ⟨18, _⟩ => ⟨S12x256x128, .i32⟩
  | .hbm, ⟨19, _⟩ => ⟨S12x256x128, .i32⟩
  | .hbm, ⟨20, _⟩ => ⟨S12x256x128x1, .i32⟩
  | .hbm, ⟨21, _⟩ => ⟨S12x256x128x1, .i32⟩
  | .hbm, ⟨22, _⟩ => ⟨S12x256x128x2, .i32⟩
  | .hbm, ⟨23, _⟩ => ⟨S12x256x128x512, .f32⟩
  | .hbm, ⟨24, _⟩ => ⟨S12x256x512, .f32⟩
  | .hbm, ⟨25, _⟩ => ⟨S256x12, .f32⟩
  | .hbm, ⟨26, _⟩ => ⟨S256x12, .f32⟩
  | .hbm, ⟨27, _⟩ => ⟨S_, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S12, .f32⟩
  | .local _ .vmem, ⟨0, _⟩ => ⟨S1x32x512, .f32⟩
  | .local _ .vmem, ⟨1, _⟩ => ⟨S1x32x512, .f32⟩
  | .local _ .vmem, ⟨2, _⟩ => ⟨S1x32x512, .f32⟩
  | .local _ .vmem, ⟨3, _⟩ => ⟨S1x32x512, .f32⟩
  | .local _ .vmem, ⟨4, _⟩ => ⟨S1x32x128x512, .f32⟩
  | .local _ .vmem, ⟨5, _⟩ => ⟨S1x32x128x512, .f32⟩
  | .local _ .vmem, ⟨6, _⟩ => ⟨S32x12, .f32⟩
  | .local _ .vmem, ⟨7, _⟩ => ⟨S32x12, .f32⟩
  | .local _ .vmem, ⟨8, _⟩ => ⟨S32x12, .f32⟩
  | .local _ .vmem, ⟨9, _⟩ => ⟨S32x12, .f32⟩
  | _, _ => ⟨S13x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_cst : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x12 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S13x256x512_S1x256x512_0_0_0 : S13x256x512.Slices ![0, 0, 0] S1x256x512
  concatenates_S1x256x512_S12x256x512_S13x256x512_d0 : Shape.Concatenates [S1x256x512, S12x256x512] S13x256x512 0
  bcast_S_S12x256x128 : S_.BroadcastsInDim S12x256x128 (![] : Fin 0 → Fin S12x256x128.rank)
  bcast_S12x256x128_S12x256x128x1_0_1_2 : S12x256x128.BroadcastsInDim S12x256x128x1 (![0, 1, 2] : Fin 3 → Fin S12x256x128x1.rank)
  concatenates_S12x256x128x1_S12x256x128x1_S12x256x128x2_d3 : Shape.Concatenates [S12x256x128x1, S12x256x128x1] S12x256x128x2 3
  slices_S13x256x512_S12x256x512_1_0_0 : S13x256x512.Slices ![1, 0, 0] S12x256x512
  inb_S32x12_S32x12_0_0 : ∀ a, (![0, 0] : Fin 2 → Nat) a + S32x12.size a ≤ S32x12.size a
  h_S32x12 : 0 < S32x12.numel
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  reduces_S32x512_S32 : S32x512.Reduces [1] S32
  inb_S1x32x128x512_S1x32x32x512_0_0_0_0 : ∀ a, (![0, 0, 0, 0] : Fin 4 → Nat) a + S1x32x32x512.size a ≤ S1x32x128x512.size a
  h_S1x32x32x512 : 0 < S1x32x32x512.numel
  shapeCasts_S1x32x32x512_S32x32x512 : S1x32x32x512.ShapeCasts S32x32x512
  shapeCasts_S32x512_S32x1x512 : S32x512.ShapeCasts S32x1x512
  broadcasts_S32x1x512_S32x32x512 : S32x1x512.Broadcasts S32x32x512
  reduces_S32x32x512_S32x32 : S32x32x512.Reduces [2] S32x32
  reduces_S32x32_S32 : S32x32.Reduces [1] S32
  shapeCasts_S32_S32x1 : S32.ShapeCasts S32x1
  broadcasts_S32x1_S32x32 : S32x1.Broadcasts S32x32
  natLt_1_32 : 1 < 32
  inb_S1x32x128x512_S1x32x32x512_0_0_32_0 : ∀ a, (![0, 0, 32, 0] : Fin 4 → Nat) a + S1x32x32x512.size a ≤ S1x32x128x512.size a
  inb_S1x32x128x512_S1x32x32x512_0_0_64_0 : ∀ a, (![0, 0, 64, 0] : Fin 4 → Nat) a + S1x32x32x512.size a ≤ S1x32x128x512.size a
  inb_S1x32x128x512_S1x32x32x512_0_0_96_0 : ∀ a, (![0, 0, 96, 0] : Fin 4 → Nat) a + S1x32x32x512.size a ≤ S1x32x128x512.size a
  iota_S1x12_d1_w32 : S1x12.Iotas .tc 32 [1]
  shapeCasts_S32x12_S32x12 : S32x12.ShapeCasts S32x12
  broadcasts_S32x1_S32x12 : S32x1.Broadcasts S32x12
  broadcasts_S1x12_S32x12 : S1x12.Broadcasts S32x12
  reducesTo_S256x12_S256_d1 : S256x12.ReducesTo [1] S256
  h_S_ : 0 < S_.numel
  bcast_S_S256 : S_.BroadcastsInDim S256 (![] : Fin 0 → Fin S256.rank)
  reducesTo_S256_S_d0 : S256.ReducesTo [0] S_
  reducesTo_S256x12_S12_d0 : S256x12.ReducesTo [0] S12
  gather_S13x256x512_S12x256x128x2_S12x256x128x512_3_01_n_n_01_3_11512_wf : GatherDims.WF S13x256x512 S12x256x128x2 S12x256x128x512 [3] [0, 1] [] [0, 1] [] 3 ![1, 1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S12x256x512.size a
  hwx0_0 : ∀ i : grid0.Coords, EltTy.bits .f32 = 32 ∨ (Rect.block (s := S12x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512.size a ≤ S12x256x512.size a
  hwx0_1 : ∀ i : grid0.Coords, EltTy.bits .f32 = 32 ∨ (Rect.block (s := S12x256x512) S1x32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128x512.size a ≤ S12x256x128x512.size a
  hwx0_2 : ∀ i : grid0.Coords, EltTy.bits .f32 = 32 ∨ (Rect.block (s := S12x256x128x512) S1x32x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x12.size a ≤ S256x12.size a
  hwx0_3 : ∀ i : grid0.Coords, EltTy.bits .f32 = 32 ∨ (Rect.block (s := S256x12) S32x12.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x12.size a ≤ S256x12.size a
  hwx0_4 : ∀ i : grid0.Coords, EltTy.bits .f32 = 32 ∨ (Rect.block (s := S256x12) S32x12.size (cc0_transform_4 i) (hinb0_4 i)).WholeWords (EltTy.packing .f32)

variable [Facts₀]

def gather_S13x256x512_S12x256x128x2_S12x256x128x512_3_01_n_n_01_3_11512 : GatherDims S13x256x512 S12x256x128x2 S12x256x128x512 where
  offsetDims := [3]
  collapsedSliceDims := [0, 1]
  operandBatchingDims := []
  startIndicesBatchingDims := []
  startIndexMap := [0, 1]
  indexVectorDim := 3
  sliceSizes := ![1, 1, 512]
  wf := gather_S13x256x512_S12x256x128x2_S12x256x128x512_3_01_n_n_01_3_11512_wf

abbrev win0_0 : Pipeline.Window sig grid0 :=
  Pipeline.Window.ofSpec (Memref.whole main_v16) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x32x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S32x12.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S32x12.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S13x256x512 : Shape := ⟨3, ![13, 256, 512]⟩
abbrev S12x256x512 : Shape := ⟨3, ![12, 256, 512]⟩
abbrev S12x256x128 : Shape := ⟨3, ![12, 256, 128]⟩
abbrev S1x256x512 : Shape := ⟨3, ![1, 256, 512]⟩
abbrev S_ : Shape := ⟨0, ![]⟩
abbrev S12x256x128x1 : Shape := ⟨4, ![12, 256, 128, 1]⟩
abbrev S12x256x128x2 : Shape := ⟨4, ![12, 256, 128, 2]⟩
abbrev S12x256x128x512 : Shape := ⟨4, ![12, 256, 128, 512]⟩
abbrev S12x256 : Shape := ⟨2, ![12, 256]⟩
abbrev S12x256x1x512 : Shape := ⟨4, ![12, 256, 1, 512]⟩
abbrev S256 : Shape := ⟨1, ![256]⟩
abbrev S12x256x1 : Shape := ⟨3, ![12, 256, 1]⟩
abbrev S12 : Shape := ⟨1, ![12]⟩

abbrev nBuf : Space → Nat
  | .hbm => 57
  | .vmem => 0
  | .smem => 0
  | _ => 0

abbrev bufTy : (tb : Table) → Fin (tcTables nBuf tb) → BufTy
  | .hbm, ⟨0, _⟩ => ⟨S13x256x512, .f32⟩
  | .hbm, ⟨1, _⟩ => ⟨S12x256x512, .f32⟩
  | .hbm, ⟨2, _⟩ => ⟨S12x256x128, .i32⟩
  | .hbm, ⟨3, _⟩ => ⟨S12x256x128, .i32⟩
  | .hbm, ⟨4, _⟩ => ⟨S1x256x512, .f32⟩
  | .hbm, ⟨5, _⟩ => ⟨S13x256x512, .f32⟩
  | .hbm, ⟨6, _⟩ => ⟨S_, .i32⟩
  | .hbm, ⟨7, _⟩ => ⟨S12x256x128, .i32⟩
  | .hbm, ⟨8, _⟩ => ⟨S12x256x128, .i1⟩
  | .hbm, ⟨9, _⟩ => ⟨S_, .i32⟩
  | .hbm, ⟨10, _⟩ => ⟨S12x256x128, .i32⟩
  | .hbm, ⟨11, _⟩ => ⟨S12x256x128, .i32⟩
  | .hbm, ⟨12, _⟩ => ⟨S12x256x128, .i32⟩
  | .hbm, ⟨13, _⟩ => ⟨S_, .i32⟩
  | .hbm, ⟨14, _⟩ => ⟨S12x256x128, .i32⟩
  | .hbm, ⟨15, _⟩ => ⟨S12x256x128, .i1⟩
  | .hbm, ⟨16, _⟩ => ⟨S_, .i32⟩
  | .hbm, ⟨17, _⟩ => ⟨S12x256x128, .i32⟩
  | .hbm, ⟨18, _⟩ => ⟨S12x256x128, .i32⟩
  | .hbm, ⟨19, _⟩ => ⟨S12x256x128, .i32⟩
  | .hbm, ⟨20, _⟩ => ⟨S12x256x128x1, .i32⟩
  | .hbm, ⟨21, _⟩ => ⟨S12x256x128x1, .i32⟩
  | .hbm, ⟨22, _⟩ => ⟨S12x256x128x2, .i32⟩
  | .hbm, ⟨23, _⟩ => ⟨S12x256x128x512, .f32⟩
  | .hbm, ⟨24, _⟩ => ⟨S12x256x512, .f32⟩
  | .hbm, ⟨25, _⟩ => ⟨S12x256x512, .f32⟩
  | .hbm, ⟨26, _⟩ => ⟨S12x256x512, .f32⟩
  | .hbm, ⟨27, _⟩ => ⟨S_, .f32⟩
  | .hbm, ⟨28, _⟩ => ⟨S12x256, .f32⟩
  | .hbm, ⟨29, _⟩ => ⟨S12x256x1x512, .f32⟩
  | .hbm, ⟨30, _⟩ => ⟨S12x256x128x512, .f32⟩
  | .hbm, ⟨31, _⟩ => ⟨S12x256x128x512, .f32⟩
  | .hbm, ⟨32, _⟩ => ⟨S12x256x128x512, .f32⟩
  | .hbm, ⟨33, _⟩ => ⟨S_, .f32⟩
  | .hbm, ⟨34, _⟩ => ⟨S12x256x128, .f32⟩
  | .hbm, ⟨35, _⟩ => ⟨S_, .f32⟩
  | .hbm, ⟨36, _⟩ => ⟨S12x256, .f32⟩
  | .hbm, ⟨37, _⟩ => ⟨S12x256, .f32⟩
  | .hbm, ⟨38, _⟩ => ⟨S12x256, .f32⟩
  | .hbm, ⟨39, _⟩ => ⟨S12x256, .f32⟩
  | .hbm, ⟨40, _⟩ => ⟨S_, .f32⟩
  | .hbm, ⟨41, _⟩ => ⟨S256, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S12x256x1, .f32⟩
  | .hbm, ⟨50, _⟩ => ⟨S12x256x128, .f32⟩
  | .hbm, ⟨51, _⟩ => ⟨S12x256x128, .i1⟩
  | .hbm, ⟨52, _⟩ => ⟨S_, .i1⟩
  | .hbm, ⟨53, _⟩ => ⟨S12x256, .i1⟩
  | .hbm, ⟨54, _⟩ => ⟨S12x256, .f32⟩
  | .hbm, ⟨55, _⟩ => ⟨S_, .f32⟩
  | .hbm, ⟨56, _⟩ => ⟨S12, .f32⟩
  | _, _ => ⟨S13x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  slices_S13x256x512_S1x256x512_0_0_0 : S13x256x512.Slices ![0, 0, 0] S1x256x512
  concatenates_S1x256x512_S12x256x512_S13x256x512_d0 : Shape.Concatenates [S1x256x512, S12x256x512] S13x256x512 0
  bcast_S_S12x256x128 : S_.BroadcastsInDim S12x256x128 (![] : Fin 0 → Fin S12x256x128.rank)
  bcast_S12x256x128_S12x256x128x1_0_1_2 : S12x256x128.BroadcastsInDim S12x256x128x1 (![0, 1, 2] : Fin 3 → Fin S12x256x128x1.rank)
  concatenates_S12x256x128x1_S12x256x128x1_S12x256x128x2_d3 : Shape.Concatenates [S12x256x128x1, S12x256x128x1] S12x256x128x2 3
  slices_S13x256x512_S12x256x512_1_0_0 : S13x256x512.Slices ![1, 0, 0] S12x256x512
  reducesTo_S12x256x512_S12x256_d2 : S12x256x512.ReducesTo [2] S12x256
  h_S_ : 0 < S_.numel
  bcast_S12x256x512_S12x256x1x512_0_1_3 : S12x256x512.BroadcastsInDim S12x256x1x512 (![0, 1, 3] : Fin 3 → Fin S12x256x1x512.rank)
  bcast_S12x256x1x512_S12x256x128x512_0_1_2_3 : S12x256x1x512.BroadcastsInDim S12x256x128x512 (![0, 1, 2, 3] : Fin 4 → Fin S12x256x128x512.rank)
  reducesTo_S12x256x128x512_S12x256x128_d3 : S12x256x128x512.ReducesTo [3] S12x256x128
  reducesTo_S12x256x128_S12x256_d2 : S12x256x128.ReducesTo [2] S12x256
  reducesTo_S12x256_S256_d0 : S12x256.ReducesTo [0] S256
  bcast_S_S256 : S_.BroadcastsInDim S256 (![] : Fin 0 → Fin S256.rank)
  reducesTo_S256_S_d0 : S256.ReducesTo [0] S_
  bcast_S12x256_S12x256x1_0_1 : S12x256.BroadcastsInDim S12x256x1 (![0, 1] : Fin 2 → Fin S12x256x1.rank)
  bcast_S12x256x1_S12x256x128_0_1_2 : S12x256x1.BroadcastsInDim S12x256x128 (![0, 1, 2] : Fin 3 → Fin S12x256x128.rank)
  reducesTo_S12x256_S12_d1 : S12x256.ReducesTo [1] S12
  gather_S13x256x512_S12x256x128x2_S12x256x128x512_3_01_n_n_01_3_11512_wf : GatherDims.WF S13x256x512 S12x256x128x2 S12x256x128x512 [3] [0, 1] [] [0, 1] [] 3 ![1, 1, 512]

variable [Facts₀]

def gather_S13x256x512_S12x256x128x2_S12x256x128x512_3_01_n_n_01_3_11512 : GatherDims S13x256x512 S12x256x128x2 S12x256x128x512 where
  offsetDims := [3]
  collapsedSliceDims := [0, 1]
  operandBatchingDims := []
  startIndicesBatchingDims := []
  startIndexMap := [0, 1]
  indexVectorDim := 3
  sliceSizes := ![1, 1, 512]
  wf := gather_S13x256x512_S12x256x128x2_S12x256x128x512_3_01_n_n_01_3_11512_wf

class Facts : Prop extends Facts₀ where

variable [Facts]
-- ==== Proof.Pieces.lean ====
/-
  What one visit of the body leaves in each output's row block, as one expression of the blocks it read.

  A visit reads the prediction block x0, the positive block x1 and the negative block x2 (the latter as four runs
  of 32 negatives), and the two output blocks as the visit before left them (xo3, xo4) — or, at the first visit of a
  round, the zero blocks it has just stored. It stores, in each output, the block it found plus the visit's rows
  in the step's column. These four equations say so, for any float instance; the arithmetic is opened elsewhere.
-/
import proofs.«109785_j58669253263549_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Value

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The quotient positive / (positive + negatives) of the visit's 32 rows. -/
def quot (x0 x1 : Vec F S1x32x512 .f32) (x2 : Vec F S1x32x128x512 .f32) : FVec F S32 .f32 :=
  k0_pay16 (k0_pay6 x0) (k0_pay7 x0 x1)
    (k0_pay9 x0 (View.ld x2 (Rect.unit ![0, 0, 0, 0] ![1, 32, 32, 512] inb_S1x32x128x512_S1x32x32x512_0_0_0_0)))
    (k0_pay11 x0 (View.ld x2 (Rect.unit ![0, 0, 32, 0] ![1, 32, 32, 512] inb_S1x32x128x512_S1x32x32x512_0_0_32_0)))
    (View.ld x2 (Rect.unit ![0, 0, 64, 0] ![1, 32, 32, 512] inb_S1x32x128x512_S1x32x32x512_0_0_64_0))
    (View.ld x2 (Rect.unit ![0, 0, 96, 0] ![1, 32, 32, 512] inb_S1x32x128x512_S1x32x32x512_0_0_96_0))

/-- The running minimum of the comparison marks of the visit's 32 rows. -/
def mins (x0 x1 : Vec F S1x32x512 .f32) (x2 : Vec F S1x32x128x512 .f32) : FVec F S32 .f32 :=
  k0_pay15 (k0_pay6 x0) (k0_pay7 x0 x1)
    (k0_pay10 x0 x1 (View.ld x2 (Rect.unit ![0, 0, 0, 0] ![1, 32, 32, 512] inb_S1x32x128x512_S1x32x32x512_0_0_0_0)))
    (k0_pay11 x0 (View.ld x2 (Rect.unit ![0, 0, 32, 0] ![1, 32, 32, 512] inb_S1x32x128x512_S1x32x32x512_0_0_32_0)))
    (View.ld x2 (Rect.unit ![0, 0, 64, 0] ![1, 32, 32, 512] inb_S1x32x128x512_S1x32x32x512_0_0_64_0))
    (View.ld x2 (Rect.unit ![0, 0, 96, 0] ![1, 32, 32, 512] inb_S1x32x128x512_S1x32x32x512_0_0_96_0))

/-- A later visit of a round, first output: the block found plus the visit's log-ratios in the step's column. -/
theorem out_B3 (c : Dev nD) (i : grid0.Coords) (a2 : Memref sig .tc .vmem S1x32x512 .f32) (h2 : a2.IsWhole)
    (a3 : Memref sig .tc .vmem S1x32x512 .f32) (h3 : a3.IsWhole) (a4 : Memref sig .tc .vmem S1x32x128x512 .f32) (h4 : a4.IsWhole)
    (a5 : Memref sig .tc .vmem S32x12 .f32) (h5 : a5.IsWhole) (a6 : Memref sig .tc .vmem S32x12 .f32) (h6 : a6.IsWhole) (hc : ¬cond0_0 i)
    (x0 x1 : Vec F S1x32x512 .f32) (x2 : Vec F S1x32x128x512 .f32) (xo3 xo4 : Vec F S32x12 .f32) :
    out0_B_3 c i a2 h2 a3 h3 a4 h4 a5 h5 a6 h6 hc x0 x1 x2 xo3 xo4
      = k0_pay2 (BitVec.ofNat 32 (i 1).val) (quot x0 x1 x2) xo3 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S32x12) hz2, View.ld_unit_zero (S := S1x32x512) hz3]
  rfl

/-- A later visit of a round, second output: the block found plus the visit's "all beaten" marks in the step's column. -/
theorem out_B4 (c : Dev nD) (i : grid0.Coords) (a2 : Memref sig .tc .vmem S1x32x512 .f32) (h2 : a2.IsWhole)
    (a3 : Memref sig .tc .vmem S1x32x512 .f32) (h3 : a3.IsWhole) (a4 : Memref sig .tc .vmem S1x32x128x512 .f32) (h4 : a4.IsWhole)
    (a5 : Memref sig .tc .vmem S32x12 .f32) (h5 : a5.IsWhole) (a6 : Memref sig .tc .vmem S32x12 .f32) (h6 : a6.IsWhole) (hc : ¬cond0_0 i)
    (x0 x1 : Vec F S1x32x512 .f32) (x2 : Vec F S1x32x128x512 .f32) (xo3 xo4 : Vec F S32x12 .f32) :
    out0_B_4 c i a2 h2 a3 h3 a4 h4 a5 h5 a6 h6 hc x0 x1 x2 xo3 xo4
      = k0_pay3 (BitVec.ofNat 32 (i 1).val) (mins x0 x1 x2) xo4 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz2]
  simp only [View.readAt_eq_ld, h2.read_unread, h3.read_unread, h4.read_unread, h5.read_unread, h6.read_unread,
    View.ld_unit_zero (S := S32x12) hz2, View.ld_unit_zero (S := S1x32x512) hz3]
  rfl

/-- The first visit of a round, first output: the zero block plus the visit's log-ratios in the step's column. -/
theorem out_A3 (c : Dev nD) (i : grid0.Coords) (a2 : Memref sig .tc .vmem S1x32x512 .f32) (h2 : a2.IsWhole)
    (a3 : Memref sig .tc .vmem S1x32x512 .f32) (h3 : a3.IsWhole) (a4 : Memref sig .tc .vmem S1x32x128x512 .f32) (h4 : a4.IsWhole)
    (a5 : Memref sig .tc .vmem S32x12 .f32) (h5 : a5.IsWhole) (a6 : Memref sig .tc .vmem S32x12 .f32) (h6 : a6.IsWhole) (hc : cond0_0 i)
    (x0 x1 : Vec F S1x32x512 .f32) (x2 : Vec F S1x32x128x512 .f32) :
    out0_A_3 c i a2 h2 a3 h3 a4 h4 a5 h5 a6 h6 hc x0 x1 x2
      = k0_pay2 (BitVec.ofNat 32 (i 1).val) (quot x0 x1 x2) (k0_pay4 (F := F)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S32x12) hz2, View.readCov_unit_zero (S := S32x12) _ hz2]
  simp only [View.readAt_eq_ld, h2.read_unread, h3.read_unread, h4.read_unread, h5.read_unread, h6.read_unread,
    View.ld_unit_zero (S := S32x12) hz2, View.ld_unit_zero (S := S1x32x512) hz3]
  rfl

/-- The first visit of a round, second output: the zero block plus the visit's "all beaten" marks in the step's column. -/
theorem out_A4 (c : Dev nD) (i : grid0.Coords) (a2 : Memref sig .tc .vmem S1x32x512 .f32) (h2 : a2.IsWhole)
    (a3 : Memref sig .tc .vmem S1x32x512 .f32) (h3 : a3.IsWhole) (a4 : Memref sig .tc .vmem S1x32x128x512 .f32) (h4 : a4.IsWhole)
    (a5 : Memref sig .tc .vmem S32x12 .f32) (h5 : a5.IsWhole) (a6 : Memref sig .tc .vmem S32x12 .f32) (h6 : a6.IsWhole) (hc : cond0_0 i)
    (x0 x1 : Vec F S1x32x512 .f32) (x2 : Vec F S1x32x128x512 .f32) :
    out0_A_4 c i a2 h2 a3 h3 a4 h4 a5 h5 a6 h6 hc x0 x1 x2
      = k0_pay3 (BitVec.ofNat 32 (i 1).val) (mins x0 x1 x2) (k0_pay5 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S32x12) hz2, View.readCov_unit_zero (S := S32x12) _ hz2]
  simp only [View.readAt_eq_ld, h2.read_unread, h3.read_unread, h4.read_unread, h5.read_unread, h6.read_unread,
    View.ld_unit_zero (S := S32x12) hz2, View.ld_unit_zero (S := S1x32x512) hz3]
  rfl

end Cert.KernelIdeal.Value

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.Spec.lean ====
/-
  The contrastive loss as mathematics, over the extended reals.

  For a step t (of 12), a batch row b (of 256), a prediction row P(t, b, ·) of 512 entries, a positive row
  Q(t, b, ·) and 128 negative rows G(t, b, n, ·):
    pos t b   = Σ_d exp (P(t,b,d) · Q(t,b,d))                     the positive's score
    neg t b n = Σ_d exp (P(t,b,d) · G(t,b,n,d))                   negative n's score
    step t b  = log (pos / (pos + Σ_n neg n))                      the step's log-ratio
    beaten t b = 1 if every negative's score is below the positive's, else 0.
  The facts below are the ones that join two ways of computing them: a sum of 128 terms taken as four
  consecutive runs of 32 added to a running total that starts at zero; "every negative is beaten" read off
  the minimum of 0/1 marks taken run by run and capped at 1, and off a conjunction of the 128 comparisons;
  and a 12-column row that starts at zero and receives, at its t-th visit, the visit's value in column t
  only (every other column receives the value times zero). Only commutativity and associativity of the
  sum, the lattice laws of the minimum, and x · 0 = 0, x · 1 = x, 0 + x = x are used: no finiteness.
-/
import Idealize.ShloMosaic.PureOps.Ideal
import Idealize.ShloMosaic.PureOps.Ideal.Laws
import Idealize.ShloMosaic.PureOps.Reduce
import Idealize.ShloMosaic.Lib.ValueIdx
import proofs.«109785_j58669253263549_2_alg».proof.Proof.LibSumBlocks

noncomputable section

namespace Cert.Contrast

open Idealize.ShloMosaic Idealize.ShloMosaic.ValueIdx

/-- The shape of the predictions and of the positives, of the negatives, and of the kernel's two outputs. -/
abbrev SP : Shape := ⟨3, ![12, 256, 512]⟩
abbrev SN : Shape := ⟨4, ![12, 256, 128, 512]⟩
abbrev SO : Shape := ⟨2, ![256, 12]⟩

/-- The positive's score at step t, row b. -/
def pos (P Q : SP.Idx → EReal) (t : Fin 12) (b : Fin 256) : EReal :=
  ∑ d : Fin 512, Ideal.exp (P (ix3 t b d) * Q (ix3 t b d))

/-- Negative n's score at step t, row b. -/
def neg (P : SP.Idx → EReal) (G : SN.Idx → EReal) (t : Fin 12) (b : Fin 256) (n : Fin 128) : EReal :=
  ∑ d : Fin 512, Ideal.exp (P (ix3 t b d) * G (ix4 t b n d))

/-- The step's log-ratio. -/
def step (P Q : SP.Idx → EReal) (G : SN.Idx → EReal) (t : Fin 12) (b : Fin 256) : EReal :=
  Ideal.log (Ideal.div (pos P Q t b) (pos P Q t b + ∑ n : Fin 128, neg P G t b n))

/-- One when the positive beats every negative, zero otherwise. -/
def beaten (P Q : SP.Idx → EReal) (G : SN.Idx → EReal) (t : Fin 12) (b : Fin 256) : EReal :=
  if ∀ n : Fin 128, neg P G t b n < pos P Q t b then 1 else 0

/-- A 0/1 mark of any statement equivalent to "every negative is beaten" is the mark `beaten`. -/
theorem beaten_eq_of_iff (P Q : SP.Idx → EReal) (G : SN.Idx → EReal) (t : Fin 12) (b : Fin 256) (q : Prop) [Decidable q]
    (h : q ↔ ∀ n : Fin 128, neg P G t b n < pos P Q t b) : (if q then (1 : EReal) else 0) = beaten P Q G t b := by
  unfold beaten
  by_cases hq : q
  · rw [if_pos hq, if_pos (h.mp hq)]
  · rw [if_neg hq, if_neg (fun h' => hq (h.mpr h'))]

/-! ## A sum of 128 terms, four runs of 32 -/

/-- Position n of run c. -/
def chunkIdx (c : Fin 4) (n : Fin 32) : Fin 128 :=
  ⟨32 * c.val + n.val, by have := c.isLt; have := n.isLt; omega⟩

/-- Every position is position n % 32 of run n / 32. -/
theorem eq_chunkIdx (n : Fin 128) :
    n = chunkIdx ⟨n.val / 32, by have := n.isLt; omega⟩ ⟨n.val % 32, Nat.mod_lt _ (by decide)⟩ :=
  Fin.ext (by show n.val = 32 * (n.val / 32) + n.val % 32; omega)

/-- A running total that starts at zero and receives the four runs' sums in turn ends at the whole sum. -/
theorem sum_chunks (f : Fin 128 → EReal) :
    (((0 + ∑ n : Fin 32, f (chunkIdx 0 n)) + ∑ n : Fin 32, f (chunkIdx 1 n)) + ∑ n : Fin 32, f (chunkIdx 2 n))
      + ∑ n : Fin 32, f (chunkIdx 3 n) = ∑ n : Fin 128, f n := by
  have h := Cert.SumBlocks.sum_blocks (M := EReal) 4 32 f
  have e : ∀ a : Fin 4, (∑ b : Fin 32, f (finProdFinEquiv (a, b))) = ∑ n : Fin 32, f (chunkIdx a n) := fun a =>
    Finset.sum_congr rfl fun b _ => congrArg f (Fin.ext (by
      show b.val + 32 * a.val = 32 * a.val + b.val; omega))
  rw [Fin.sum_univ_four, e 0, e 1, e 2, e 3] at h
  rw [zero_add]
  exact h.symm

/-! ## "Every negative is beaten", two ways -/

/-- A 0/1 mark that is at least one is a one. -/
theorem one_le_mark (q : Prop) [Decidable q] : (1 : EReal) ≤ (if q then 1 else 0) ↔ q := by
  by_cases h : q
  · simp [h]
  · simp [h]

/-- The minimum over the runs, capped at one, is at least one exactly when every comparison holds. -/
theorem one_le_min_chunks (p : EReal) (g : Fin 128 → EReal) (m : Fin 4 → EReal)
    (hm : ∀ c, (1 ≤ m c ↔ ∀ n : Fin 32, g (chunkIdx c n) < p)) :
    (1 ≤ min (min (min (min 1 (m 0)) (m 1)) (m 2)) (m 3)) ↔ ∀ n : Fin 128, g n < p := by
  simp only [le_min_iff, le_refl, true_and, hm]
  constructor
  · rintro ⟨⟨⟨h0, h1⟩, h2⟩, h3⟩ n
    have hc : ∀ (c : Fin 4) (k : Fin 32), g (chunkIdx c k) < p := fun c =>
      match c with
      | ⟨0, _⟩ => h0
      | ⟨1, _⟩ => h1
      | ⟨2, _⟩ => h2
      | ⟨3, _⟩ => h3
    rw [eq_chunkIdx n]
    exact hc _ _
  · intro h
    exact ⟨⟨⟨fun _ => h _, fun _ => h _⟩, fun _ => h _⟩, fun _ => h _⟩

/-- The minimum of a run's 0/1 marks, from plus infinity, is at least one exactly when every mark is one. -/
theorem one_le_fold_min_marks (q : Fin 32 → Prop) [DecidablePred q] :
    (1 : EReal) ≤ (Finset.univ : Finset (Fin 32)).fold min ⊤ (fun n => if q n then (1 : EReal) else 0) ↔ ∀ n, q n := by
  rw [Finset.le_fold_min]
  simp only [le_top, true_and, Finset.mem_univ, forall_const, one_le_mark]

/-- The conjunction of a family of one-bit words, from the word one. -/
theorem fold_andi_ofBool {ι : Type} [DecidableEq ι] (s : Finset ι) (q : ι → Bool) :
    s.fold IntOp.andi 1#1 (fun n => BitVec.ofBool (q n)) = BitVec.ofBool (decide (∀ n ∈ s, q n = true)) := by
  induction s using Finset.induction_on with
  | empty => simp
  | insert a s ha ih =>
    rw [Finset.fold_insert ha, ih]
    have hd : decide (∀ n ∈ insert a s, q n = true) = (q a && decide (∀ n ∈ s, q n = true)) := by
      simp [Finset.forall_mem_insert]
    rw [hd]
    generalize decide (∀ n ∈ s, q n = true) = d
    cases q a <;> cases d <;> decide

/-! ## A row of 12 columns filled one column per visit -/

/-- Rows that start from zero at the visits that are multiples of 12 and otherwise continue from the visit
    before, each visit adding its value times the mark of its own column: after visit n the columns up to
    n % 12 hold the values of the visits of the current round, the later columns zero. -/
theorem masked_rows (f : (n : ℕ) → n < 96 → Fin 32 → Fin 12 → EReal) (X : ℕ → Fin 32 → EReal)
    (h0 : ∀ (n : ℕ) (h : n < 96), n % 12 = 0 → ∀ r j, f n h r j = 0 + X n r * (if j.val = n % 12 then 1 else 0))
    (hs : ∀ (n : ℕ) (h : n + 1 < 96), ¬(n + 1) % 12 = 0 → ∀ r j,
      f (n + 1) h r j = f n (Nat.lt_of_succ_lt h) r j + X (n + 1) r * (if j.val = (n + 1) % 12 then 1 else 0)) :
    ∀ (n : ℕ) (h : n < 96) (r : Fin 32) (j : Fin 12),
      f n h r j = if j.val ≤ n % 12 then X (12 * (n / 12) + j.val) r else 0 := by
  intro n
  induction n with
  | zero =>
    intro h r j
    rw [h0 0 h rfl]
    by_cases hj : j.val = 0
    · simp [hj]
    · have : ¬ j.val ≤ 0 := by omega
      simp [hj, this]
  | succ n ih =>
    intro h r j
    by_cases hm : (n + 1) % 12 = 0
    · rw [h0 (n + 1) h hm, hm]
      by_cases hj : j.val = 0
      · have e : 12 * ((n + 1) / 12) + j.val = n + 1 := by omega
        simp [hj, e]
        rw [show 12 * ((n + 1) / 12) = n + 1 from by omega]
      · have : ¬ j.val ≤ 0 := by omega
        simp [hj, this]
    · rw [hs n h hm, ih (Nat.lt_of_succ_lt h)]
      have hmod : (n + 1) % 12 = n % 12 + 1 := by omega
      have hdiv : (n + 1) / 12 = n / 12 := by omega
      rw [hmod, hdiv]
      by_cases h1 : j.val ≤ n % 12
      · have h2 : ¬ j.val = n % 12 + 1 := by omega
        have h3 : j.val ≤ n % 12 + 1 := by omega
        simp [h1, h2, h3]
      · by_cases h2 : j.val = n % 12 + 1
        · have e : 12 * (n / 12) + j.val = n + 1 := by omega
          simp [h1, h2, e]
          rw [show 12 * (n / 12) + (n % 12 + 1) = n + 1 from by omega]
        · have h3 : ¬ j.val ≤ n % 12 + 1 := by omega
          simp [h1, h2, h3]

end Cert.Contrast

end
-- ==== Proof.PointValues.lean ====
/-
  One grid point's arithmetic, read entry by entry over the extended reals.

  At a grid point the body holds a [1,32,512] block of predictions x0, a [1,32,512] block of positives x1 and a
  [1,32,128,512] block of negatives x2 (32 batch rows). For row r it forms the positive's score
  Σ_d exp (x0(r,d)·x1(r,d)); for each of four runs of 32 negatives the run's 32 scores
  Σ_d exp (x0(r,d)·x2(r,n,d)), their sum and the minimum of the 0/1 marks "the positive's score is above this
  negative's"; a running total of the runs' sums from zero and a running minimum of the marks from one; the
  quotient positive / (positive + total), its logarithm, and the mark "the running minimum is at least one";
  and it adds to each output row the row's value times the 0/1 mark of the column that equals the step.
  Each lemma reads one of these vector operations at coordinates.
-/
import proofs.«109785_j58669253263549_2_alg».proof.Proof.Gen.KernelIdeal.Skeleton
import proofs.«109785_j58669253263549_2_alg».proof.Proof.LibLayout
import proofs.«109785_j58669253263549_2_alg».proof.Proof.Spec
import Idealize.ShloMosaic.Lib.ValueLayout
import Idealize.ShloMosaic.Lib.Pipeline.Value
import Idealize.ShloMosaic.PureOps.Ideal.Laws

noncomputable section

namespace Cert.KernelIdeal.Point

open Cert.KernelIdeal Cert.KernelIdeal.Gen Idealize.ShloMosaic Idealize.ShloMosaic.ValueIdx

/-! ## The vector operations, named -/

/-- A run's 32 scores per row: the sum over d of exp of the row's prediction times the run's negative. -/
def negRun (a : FVec Ideal S32x512 .f32) (v : Vec Ideal S1x32x32x512 .f32) : FVec Ideal S32x32 .f32 :=
  multiReduction .add [2] S32x32
    (exp (mulf (broadcastTo S32x32x512 (shapeCast S32x1x512 a shapeCasts_S32x512_S32x1x512) broadcasts_S32x1x512_S32x32x512)
      (shapeCast S32x32x512 v shapeCasts_S1x32x32x512_S32x32x512)))
    0x00000000#32 reduces_S32x32x512_S32x32 (.inl rfl) rfl

/-- The sum of a run's scores per row. -/
def rowSum (g : FVec Ideal S32x32 .f32) : FVec Ideal S32 .f32 :=
  multiReduction .add [1] S32 g 0x00000000#32 reduces_S32x32_S32 (.inl rfl) rfl

/-- The minimum, per row, of the marks "the row's positive score is above the run's negative's". -/
def runMin (p : FVec Ideal S32 .f32) (g : FVec Ideal S32x32 .f32) : FVec Ideal S32 .f32 :=
  multiReduction .minimumf [1] S32
    (sitofp .f32 (extui 32 (cmpf .ogt (broadcastTo S32x32 (shapeCast S32x1 p shapeCasts_S32_S32x1) broadcasts_S32x1_S32x32) g) natLt_1_32))
    0x7F800000#32 reduces_S32x32_S32 (.inl rfl) rfl

theorem pay8_eq (x0 : Vec Ideal S1x32x512 .f32) (v : Vec Ideal S1x32x32x512 .f32) :
    k0_pay8 x0 v = negRun (k0_pay6 x0) v := rfl
theorem pay12_eq (x0 : Vec Ideal S1x32x512 .f32) (v : Vec Ideal S1x32x32x512 .f32) :
    k0_pay12 (k0_pay11 x0 v) = negRun (k0_pay6 x0) v := rfl
theorem pay13_eq (a : FVec Ideal S32x512 .f32) (v : Vec Ideal S1x32x32x512 .f32) : k0_pay13 a v = negRun a v := rfl
theorem pay14_eq (a : FVec Ideal S32x512 .f32) (v : Vec Ideal S1x32x32x512 .f32) : k0_pay14 a v = negRun a v := rfl

/-! ## Read at coordinates -/

/-- The prediction block with its unit axis dropped. -/
theorem pay6_apply (x0 : Vec Ideal S1x32x512 .f32) (r : Fin 32) (d : Fin 512) :
    k0_pay6 x0 (ix2 r d) = x0 (ix3 (0 : Fin 1) r d) :=
  shapeCast_1ab_ab_apply x0 shapeCasts_S1x32x512_S32x512 r d

/-- A run's score of row r against negative n. -/
theorem negRun_apply (a : FVec Ideal S32x512 .f32) (v : Vec Ideal S1x32x32x512 .f32) (r n : Fin 32) :
    negRun a v (ix2 r n) = ∑ d : Fin 512, Ideal.exp (a (ix2 r d) * v (ix4 (0 : Fin 1) r n d)) := by
  refine (Ideal.multiReduction_add_single _ _ reduces_S32x32x512_S32x32 _ _ (ix2 r n)).trans ?_
  show ∑ d : Fin 512, (exp (mulf (broadcastTo S32x32x512 (shapeCast S32x1x512 a shapeCasts_S32x512_S32x1x512) broadcasts_S32x1x512_S32x32x512)
      (shapeCast S32x32x512 v shapeCasts_S1x32x32x512_S32x32x512))) (reduces_S32x32x512_S32x32.lift (ix2 r n) d) = _
  refine Finset.sum_congr rfl fun d _ => ?_
  have e : reduces_S32x32x512_S32x32.lift (ix2 r n) d = ix3 r n d :=
    funext fun a => Fin.ext (by match a with | ⟨0, _⟩ => rfl | ⟨1, _⟩ => rfl | ⟨2, _⟩ => rfl)
  rw [e]
  show Ideal.exp (broadcastTo S32x32x512 (shapeCast S32x1x512 a shapeCasts_S32x512_S32x1x512) broadcasts_S32x1x512_S32x32x512 (ix3 r n d)
    * shapeCast S32x32x512 v shapeCasts_S1x32x32x512_S32x32x512 (ix3 r n d)) = _
  rw [Cert.LibLayout.broadcastTo_a1c_abc_apply, Cert.LibLayout.shapeCast_ac_a1c_apply, shapeCast_1abc_abc_apply]

/-- The positive's score of row r. -/
theorem pay7_apply (x0 x1 : Vec Ideal S1x32x512 .f32) (r : Fin 32) :
    k0_pay7 x0 x1 (ix1 r) = ∑ d : Fin 512, Ideal.exp (x0 (ix3 (0 : Fin 1) r d) * x1 (ix3 (0 : Fin 1) r d)) := by
  unfold k0_pay7
  refine (Ideal.multiReduction_add_single _ _ reduces_S32x512_S32 _ _ (ix1 r)).trans ?_
  show ∑ d : Fin 512, (exp (mulf (k0_pay6 x0) (shapeCast S32x512 x1 shapeCasts_S1x32x512_S32x512))) (reduces_S32x512_S32.lift (ix1 r) d) = _
  refine Finset.sum_congr rfl fun d _ => ?_
  have e : reduces_S32x512_S32.lift (ix1 r) d = ix2 r d :=
    funext fun a => Fin.ext (by match a with | ⟨0, _⟩ => rfl | ⟨1, _⟩ => rfl)
  rw [e]
  show Ideal.exp (k0_pay6 x0 (ix2 r d) * shapeCast S32x512 x1 shapeCasts_S1x32x512_S32x512 (ix2 r d)) = _
  rw [pay6_apply, shapeCast_1ab_ab_apply]

/-- The sum of a run's scores. -/
theorem rowSum_apply (g : FVec Ideal S32x32 .f32) (r : Fin 32) : rowSum g (ix1 r) = ∑ n : Fin 32, g (ix2 r n) := by
  refine (Ideal.multiReduction_add_single _ _ reduces_S32x32_S32 _ _ (ix1 r)).trans ?_
  show ∑ n : Fin 32, g (reduces_S32x32_S32.lift (ix1 r) n) = _
  refine Finset.sum_congr rfl fun n _ => ?_
  exact congrArg g (funext fun a => Fin.ext (by match a with | ⟨0, _⟩ => rfl | ⟨1, _⟩ => rfl))

/-- A comparison's one-bit word, zero-extended and read as a signed integer, is the 0/1 mark. -/
theorem mark_gt (p g : EReal) :
    (FloatOps.sitofp (F := Ideal) .f32 ((FloatOps.cmpf (F := Ideal) (φ := .f32) .ogt p g).setWidth 32) : EReal)
      = if g < p then 1 else 0 := by
  show (((BitVec.setWidth 32 (BitVec.ofBool (decide (g < p)))).toInt : ℝ) : EReal) = _
  by_cases h : g < p
  · rw [if_pos h, decide_eq_true h]
    show (((1 : ℤ) : ℝ) : EReal) = 1
    simp
  · rw [if_neg h, decide_eq_false h]
    show (((0 : ℤ) : ℝ) : EReal) = 0
    simp

theorem mark_ge (x y : EReal) :
    (FloatOps.sitofp (F := Ideal) .f32 ((FloatOps.cmpf (F := Ideal) (φ := .f32) .oge x y).setWidth 32) : EReal)
      = if y ≤ x then 1 else 0 := by
  show (((BitVec.setWidth 32 (BitVec.ofBool (decide (y ≤ x)))).toInt : ℝ) : EReal) = _
  by_cases h : y ≤ x
  · rw [if_pos h, decide_eq_true h]
    show (((1 : ℤ) : ℝ) : EReal) = 1
    simp
  · rw [if_neg h, decide_eq_false h]
    show (((0 : ℤ) : ℝ) : EReal) = 0
    simp

/-- The bit pattern of plus infinity denotes the top element, that of 1.0 the number one. -/
theorem ofBits_inf : Ideal.ofBits .f32 0x7F800000#32 = ⊤ := by simp [Ideal.ofBits, Ideal.ieee]
theorem ofBits_one : Ideal.ofBits .f32 0x3F800000#32 = 1 := IdealRules.sign_bit.ideal_onePat .f32

/-- A run's minimum of marks is at least one exactly when the positive's score is above every negative's of the run. -/
theorem one_le_runMin (p : FVec Ideal S32 .f32) (g : FVec Ideal S32x32 .f32) (r : Fin 32) :
    (1 : EReal) ≤ runMin p g (ix1 r) ↔ ∀ n : Fin 32, g (ix2 r n) < p (ix1 r) := by
  have hfold : runMin p g (ix1 r)
      = (Finset.univ : Finset (Fin 32)).fold min ⊤ (fun n => if g (ix2 r n) < p (ix1 r) then (1 : EReal) else 0) := by
    refine (multiReduction_minimumf_eq_fold (F := Ideal) _ _ reduces_S32x32_S32 _ _ (ix1 r)).trans ?_
    refine (reduces_S32x32_S32.fold_filter_drop_single _ _ _ (ix1 r)).trans ?_
    have e0 : (FloatOps.ofBits (F := Ideal) .f32 0x7F800000#32 : EReal) = ⊤ := ofBits_inf
    rw [e0]
    show (Finset.univ : Finset (Fin 32)).fold min ⊤ (fun n : Fin 32 =>
      sitofp (F := Ideal) .f32 (extui 32 (cmpf .ogt (broadcastTo S32x32 (shapeCast S32x1 p shapeCasts_S32_S32x1) broadcasts_S32x1_S32x32) g) natLt_1_32)
        (reduces_S32x32_S32.lift (ix1 r) n)) = _
    refine congrArg (Finset.fold min ⊤ · Finset.univ) (funext fun (n : Fin 32) => ?_)
    have e : reduces_S32x32_S32.lift (ix1 r) n = ix2 r n :=
      funext fun a => Fin.ext (by match a with | ⟨0, _⟩ => rfl | ⟨1, _⟩ => rfl)
    show sitofp .f32 (extui 32 (cmpf .ogt (broadcastTo S32x32 (shapeCast S32x1 p shapeCasts_S32_S32x1) broadcasts_S32x1_S32x32) g) natLt_1_32)
      (reduces_S32x32_S32.lift (ix1 r) n) = _
    rw [e]
    show (FloatOps.sitofp (F := Ideal) .f32 ((FloatOps.cmpf (F := Ideal) (φ := .f32) .ogt
      (broadcastTo S32x32 (shapeCast S32x1 p shapeCasts_S32_S32x1) broadcasts_S32x1_S32x32 (ix2 r n)) (g (ix2 r n))).setWidth 32) : EReal) = _
    rw [mark_gt, Cert.LibLayout.broadcastTo_a1_ab_apply, Cert.LibLayout.shapeCast_a_a1_apply]
  rw [hfold]
  exact Cert.Contrast.one_le_fold_min_marks _

end Cert.KernelIdeal.Point

end
-- ==== Proof.PointRows.lean ====
/-
  One grid point's rows: what the body adds to each output row, as a function of the point's three input blocks.

  With x0 the [1,32,512] block of predictions, x1 the block of positives and x2 the [1,32,128,512] block of
  negatives, row r of the point has the positive's score ptPos, the 128 negatives' scores ptNeg, and the body
  adds log (ptPos / (ptPos + Σ_n ptNeg n)) to column "step" of the first output's row r, and the mark
  "ptPos is above every ptNeg n" to that column of the second output's row; every other column receives the
  value times zero. The body reads the negatives as four runs of 32 (rows 0–31, 32–63, 64–95, 96–127 of the
  block's negative axis): the four runs' sums added to a total from zero are the sum over all 128, and the
  running minimum of the runs' marks, capped at one, is at least one exactly when all 128 comparisons hold.
-/
import proofs.«109785_j58669253263549_2_alg».proof.Proof.PointValues

noncomputable section

namespace Cert.KernelIdeal.Point

open Cert.KernelIdeal Cert.KernelIdeal.Gen Idealize.ShloMosaic Idealize.ShloMosaic.ValueIdx
open Cert.Contrast (chunkIdx)

/-- Row r's positive score, its score against negative n, its log-ratio and its "all beaten" mark at a point. -/
def ptPos (x0 x1 : Vec Ideal S1x32x512 .f32) (r : Fin 32) : EReal :=
  ∑ d : Fin 512, Ideal.exp (x0 (ix3 (0 : Fin 1) r d) * x1 (ix3 (0 : Fin 1) r d))
def ptNeg (x0 : Vec Ideal S1x32x512 .f32) (x2 : Vec Ideal S1x32x128x512 .f32) (r : Fin 32) (n : Fin 128) : EReal :=
  ∑ d : Fin 512, Ideal.exp (x0 (ix3 (0 : Fin 1) r d) * x2 (ix4 (0 : Fin 1) r n d))
def ptStep (x0 x1 : Vec Ideal S1x32x512 .f32) (x2 : Vec Ideal S1x32x128x512 .f32) (r : Fin 32) : EReal :=
  Ideal.log (Ideal.div (ptPos x0 x1 r) (ptPos x0 x1 r + ∑ n : Fin 128, ptNeg x0 x2 r n))
def ptBeaten (x0 x1 : Vec Ideal S1x32x512 .f32) (x2 : Vec Ideal S1x32x128x512 .f32) (r : Fin 32) : EReal :=
  if ∀ n : Fin 128, ptNeg x0 x2 r n < ptPos x0 x1 r then 1 else 0

/-- A run of 32 negatives read out of the block from row o of its negative axis: entry (r, n, d) of the run
    is entry (r, o + n, d) of the block. -/
theorem ld_run (x2 : Vec Ideal S1x32x128x512 .f32) (o : ℕ) (inb : ∀ a, (![0, 0, o, 0] : Fin 4 → ℕ) a + (![1, 32, 32, 512] : Fin 4 → ℕ) a ≤ S1x32x128x512.size a)
    (r n : Fin 32) (d : Fin 512) (k : Fin 128) (hk : k.val = o + n.val) :
    View.ld x2 (Rect.unit ![0, 0, o, 0] ![1, 32, 32, 512] inb) (ix4 (0 : Fin 1) r n d) = x2 (ix4 (0 : Fin 1) r k d) := by
  show x2 ((Rect.unit (s := S1x32x128x512) ![0, 0, o, 0] ![1, 32, 32, 512] inb).idx (ix4 (0 : Fin 1) r n d)) = _
  refine congrArg x2 (funext fun a => Fin.ext ?_)
  match a with
  | ⟨0, _⟩ => show 0 + 1 * 0 = 0; rfl
  | ⟨1, _⟩ => show 0 + 1 * r.val = r.val; omega
  | ⟨2, _⟩ => show o + 1 * n.val = k.val; omega
  | ⟨3, _⟩ => show 0 + 1 * d.val = d.val; omega

/-- A run's score against its n-th negative is the block's score against negative k = o + n. -/
theorem negRun_ld (x0 : Vec Ideal S1x32x512 .f32) (x2 : Vec Ideal S1x32x128x512 .f32) (o : ℕ)
    (inb : ∀ a, (![0, 0, o, 0] : Fin 4 → ℕ) a + (![1, 32, 32, 512] : Fin 4 → ℕ) a ≤ S1x32x128x512.size a)
    (r n : Fin 32) (k : Fin 128) (hk : k.val = o + n.val) :
    negRun (k0_pay6 x0) (View.ld x2 (Rect.unit ![0, 0, o, 0] ![1, 32, 32, 512] inb)) (ix2 r n) = ptNeg x0 x2 r k := by
  rw [negRun_apply]
  refine Finset.sum_congr rfl fun d _ => ?_
  rw [pay6_apply, ld_run x2 o inb r n d k hk]

/-- The four runs as the body loads them. -/
abbrev run0 (x2 : Vec Ideal S1x32x128x512 .f32) : Vec Ideal S1x32x32x512 .f32 :=
  View.ld x2 (Rect.unit ![0, 0, 0, 0] ![1, 32, 32, 512] inb_S1x32x128x512_S1x32x32x512_0_0_0_0)
abbrev run1 (x2 : Vec Ideal S1x32x128x512 .f32) : Vec Ideal S1x32x32x512 .f32 :=
  View.ld x2 (Rect.unit ![0, 0, 32, 0] ![1, 32, 32, 512] inb_S1x32x128x512_S1x32x32x512_0_0_32_0)
abbrev run2 (x2 : Vec Ideal S1x32x128x512 .f32) : Vec Ideal S1x32x32x512 .f32 :=
  View.ld x2 (Rect.unit ![0, 0, 64, 0] ![1, 32, 32, 512] inb_S1x32x128x512_S1x32x32x512_0_0_64_0)
abbrev run3 (x2 : Vec Ideal S1x32x128x512 .f32) : Vec Ideal S1x32x32x512 .f32 :=
  View.ld x2 (Rect.unit ![0, 0, 96, 0] ![1, 32, 32, 512] inb_S1x32x128x512_S1x32x32x512_0_0_96_0)

theorem neg0 (x0 : Vec Ideal S1x32x512 .f32) (x2 : Vec Ideal S1x32x128x512 .f32) (r n : Fin 32) :
    negRun (k0_pay6 x0) (run0 x2) (ix2 r n) = ptNeg x0 x2 r (chunkIdx 0 n) :=
  negRun_ld x0 x2 0 _ r n _ (by show 32 * 0 + n.val = 0 + n.val; omega)
theorem neg1 (x0 : Vec Ideal S1x32x512 .f32) (x2 : Vec Ideal S1x32x128x512 .f32) (r n : Fin 32) :
    negRun (k0_pay6 x0) (run1 x2) (ix2 r n) = ptNeg x0 x2 r (chunkIdx 1 n) :=
  negRun_ld x0 x2 32 _ r n _ (by show 32 * 1 + n.val = 32 + n.val; omega)
theorem neg2 (x0 : Vec Ideal S1x32x512 .f32) (x2 : Vec Ideal S1x32x128x512 .f32) (r n : Fin 32) :
    negRun (k0_pay6 x0) (run2 x2) (ix2 r n) = ptNeg x0 x2 r (chunkIdx 2 n) :=
  negRun_ld x0 x2 64 _ r n _ (by show 32 * 2 + n.val = 64 + n.val; omega)
theorem neg3 (x0 : Vec Ideal S1x32x512 .f32) (x2 : Vec Ideal S1x32x128x512 .f32) (r n : Fin 32) :
    negRun (k0_pay6 x0) (run3 x2) (ix2 r n) = ptNeg x0 x2 r (chunkIdx 3 n) :=
  negRun_ld x0 x2 96 _ r n _ (by show 32 * 3 + n.val = 96 + n.val; omega)

/-- The quotient the body takes the logarithm of: the positive's score over itself plus all 128 negatives'. -/
theorem quotient_row (x0 x1 : Vec Ideal S1x32x512 .f32) (x2 : Vec Ideal S1x32x128x512 .f32) (r : Fin 32) :
    k0_pay16 (k0_pay6 x0) (k0_pay7 x0 x1) (k0_pay9 x0 (run0 x2)) (k0_pay11 x0 (run1 x2)) (run2 x2) (run3 x2) (ix1 r)
      = Ideal.div (ptPos x0 x1 r) (ptPos x0 x1 r + ∑ n : Fin 128, ptNeg x0 x2 r n) := by
  show Ideal.div (k0_pay7 x0 x1 (ix1 r)) (k0_pay7 x0 x1 (ix1 r)
    + ((((Ideal.ofBits .f32 0x00000000#32 + rowSum (k0_pay8 x0 (run0 x2)) (ix1 r)) + rowSum (k0_pay12 (k0_pay11 x0 (run1 x2))) (ix1 r))
      + rowSum (k0_pay13 (k0_pay6 x0) (run2 x2)) (ix1 r)) + rowSum (k0_pay14 (k0_pay6 x0) (run3 x2)) (ix1 r))) = _
  rw [pay8_eq, pay12_eq, pay13_eq, pay14_eq, rowSum_apply, rowSum_apply, rowSum_apply, rowSum_apply, pay7_apply,
    Ideal.ofBits_zero_f32]
  simp only [neg0, neg1, neg2, neg3]
  rw [Cert.Contrast.sum_chunks (fun n => ptNeg x0 x2 r n)]
  rfl

/-- The running minimum of marks is at least one exactly when the positive's score is above all 128 negatives'. -/
theorem minimum_row (x0 x1 : Vec Ideal S1x32x512 .f32) (x2 : Vec Ideal S1x32x128x512 .f32) (r : Fin 32) :
    (1 : EReal) ≤ k0_pay15 (k0_pay6 x0) (k0_pay7 x0 x1) (k0_pay10 x0 x1 (run0 x2)) (k0_pay11 x0 (run1 x2)) (run2 x2) (run3 x2) (ix1 r)
      ↔ ∀ n : Fin 128, ptNeg x0 x2 r n < ptPos x0 x1 r := by
  show (1 : EReal) ≤ min (min (min (min (Ideal.ofBits .f32 0x3F800000#32) (runMin (k0_pay7 x0 x1) (k0_pay8 x0 (run0 x2)) (ix1 r)))
      (runMin (k0_pay7 x0 x1) (k0_pay12 (k0_pay11 x0 (run1 x2))) (ix1 r)))
      (runMin (k0_pay7 x0 x1) (k0_pay13 (k0_pay6 x0) (run2 x2)) (ix1 r)))
      (runMin (k0_pay7 x0 x1) (k0_pay14 (k0_pay6 x0) (run3 x2)) (ix1 r)) ↔ _
  rw [pay8_eq, pay12_eq, pay13_eq, pay14_eq, ofBits_one]
  refine Cert.Contrast.one_le_min_chunks (ptPos x0 x1 r) (fun n => ptNeg x0 x2 r n)
    (fun c => match c with
      | ⟨0, _⟩ => runMin (k0_pay7 x0 x1) (negRun (k0_pay6 x0) (run0 x2)) (ix1 r)
      | ⟨1, _⟩ => runMin (k0_pay7 x0 x1) (negRun (k0_pay6 x0) (run1 x2)) (ix1 r)
      | ⟨2, _⟩ => runMin (k0_pay7 x0 x1) (negRun (k0_pay6 x0) (run2 x2)) (ix1 r)
      | ⟨3, _⟩ => runMin (k0_pay7 x0 x1) (negRun (k0_pay6 x0) (run3 x2)) (ix1 r)) (fun c => ?_)
  match c with
  | ⟨0, _⟩ => rw [show (⟨0, _⟩ : Fin 4) = 0 from rfl]; simp only [one_le_runMin, neg0, pay7_apply]; rfl
  | ⟨1, _⟩ => rw [show (⟨1, _⟩ : Fin 4) = 1 from rfl]; simp only [one_le_runMin, neg1, pay7_apply]; rfl
  | ⟨2, _⟩ => rw [show (⟨2, _⟩ : Fin 4) = 2 from rfl]; simp only [one_le_runMin, neg2, pay7_apply]; rfl
  | ⟨3, _⟩ => rw [show (⟨3, _⟩ : Fin 4) = 3 from rfl]; simp only [one_le_runMin, neg3, pay7_apply]; rfl

/-- The column mark: one in the column whose number is the step, zero elsewhere. -/
theorem mask_entry (k : ℕ) (hk : k < 12) (j : Fin 12) :
    k0_pay1 (F := Ideal) (BitVec.ofNat 32 k) (ix2 (0 : Fin 1) j) = if j.val = k then 1 else 0 := by
  show (FloatOps.sitofp (F := Ideal) .f32 ((IntOp.cmpi .eq (iota .tc S1x12 32 [1] iota_S1x12_d1_w32 (ix2 (0 : Fin 1) j)) (BitVec.ofNat 32 k)).setWidth 32) : EReal) = _
  rw [iota_single_apply]
  show (((BitVec.setWidth 32 (BitVec.ofBool (BitVec.ofNat 32 j.val == BitVec.ofNat 32 k))).toInt : ℝ) : EReal) = _
  have hj := j.isLt
  by_cases h : j.val = k
  · rw [if_pos h, h, beq_self_eq_true]
    show (((1 : ℤ) : ℝ) : EReal) = 1
    simp
  · have hne : BitVec.ofNat 32 j.val ≠ BitVec.ofNat 32 k := fun e => h (by
      have := congrArg BitVec.toNat e
      simp only [BitVec.toNat_ofNat] at this
      omega)
    rw [if_neg h, beq_eq_false_iff_ne.mpr hne]
    show (((0 : ℤ) : ℝ) : EReal) = 0
    simp

/-- What the body stores in the first output: the row as found plus the row's log-ratio in the step's column. -/
theorem out3_entry (k : ℕ) (hk : k < 12) (v77 : FVec Ideal S32 .f32) (v88 : Vec Ideal S32x12 .f32) (r : Fin 32) (j : Fin 12) :
    k0_pay2 (BitVec.ofNat 32 k) v77 v88 (ix2 r j) = v88 (ix2 r j) + Ideal.log (v77 (ix1 r)) * (if j.val = k then 1 else 0) := by
  show shapeCast S32x12 v88 shapeCasts_S32x12_S32x12 (ix2 r j)
    + broadcastTo S32x12 (shapeCast S32x1 (log v77) shapeCasts_S32_S32x1) broadcasts_S32x1_S32x12 (ix2 r j)
      * broadcastTo S32x12 (k0_pay1 (F := Ideal) (BitVec.ofNat 32 k)) broadcasts_S1x12_S32x12 (ix2 r j) = _
  rw [shapeCast_self, Cert.LibLayout.broadcastTo_a1_ab_apply, Cert.LibLayout.shapeCast_a_a1_apply, broadcastTo_1b_ab_apply,
    mask_entry k hk]
  rfl

/-- What the body stores in the second output: the row as found plus the row's "all beaten" mark in the step's column. -/
theorem out4_entry (k : ℕ) (hk : k < 12) (v75 : FVec Ideal S32 .f32) (v96 : Vec Ideal S32x12 .f32) (r : Fin 32) (j : Fin 12) :
    k0_pay3 (BitVec.ofNat 32 k) v75 v96 (ix2 r j)
      = v96 (ix2 r j) + (if (1 : EReal) ≤ v75 (ix1 r) then 1 else 0) * (if j.val = k then 1 else 0) := by
  show shapeCast S32x12 v96 shapeCasts_S32x12_S32x12 (ix2 r j)
    + broadcastTo S32x12 (shapeCast S32x1
        (sitofp (F := Ideal) .f32 (extui 32 (cmpf .oge v75 (broadcast S32 (Scalar.ofBits .f32 0x3F800000#32))) natLt_1_32))
        shapeCasts_S32_S32x1) broadcasts_S32x1_S32x12 (ix2 r j)
      * broadcastTo S32x12 (k0_pay1 (F := Ideal) (BitVec.ofNat 32 k)) broadcasts_S1x12_S32x12 (ix2 r j) = _
  rw [shapeCast_self, Cert.LibLayout.broadcastTo_a1_ab_apply, Cert.LibLayout.shapeCast_a_a1_apply, broadcastTo_1b_ab_apply,
    mask_entry k hk]
  show _ + (FloatOps.sitofp (F := Ideal) .f32 ((FloatOps.cmpf (F := Ideal) (φ := .f32) .oge (v75 (ix1 r)) (Ideal.ofBits .f32 0x3F800000#32)).setWidth 32) : EReal) * _ = _
  rw [mark_ge, ofBits_one]

/-- The block of zeros a first visit stores. -/
theorem zero_entry3 (i : S32x12.Idx) : k0_pay4 (F := Ideal) i = 0 := Ideal.ofBits_zero_f32
theorem zero_entry5 (i : S32x12.Idx) : k0_pay5 (F := Ideal) i = 0 := Ideal.ofBits_zero_f32

end Cert.KernelIdeal.Point

end
-- ==== Proof.Blocks.lean ====
/-
  Where a grid point's blocks sit in the arrays.

  The 96 grid points are visited in order; point t is round t / 12 (of 8), step t % 12 (of 12). Its prediction and
  positive blocks are rows 32·(t/12) … 32·(t/12) + 31 of plane t % 12 of the [12, 256, 512] arrays, its negative
  block the same rows of plane t % 12 of the [12, 256, 128, 512] array, and its two output blocks are rows
  32·(t/12) … 32·(t/12) + 31 of the [256, 12] outputs, all 12 columns. The facts about the index maps are decided
  over the 96 points; the block reads follow from "an element's coordinate is block index × block size + its
  coordinate inside the block".
-/
import proofs.«109785_j58669253263549_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Value

open Cert.KernelIdeal Cert.KernelIdeal.Gen

variable {F : FTy → Type} [FloatOps F]
variable (m : (ℓ : Loc nD τ sig) → Buf (Elt F) ℓ)

/-- Point t's grid coordinates: (round, step) = (t / 12, t % 12). -/
theorem coords_facts : ∀ t : Fin cfg0.N, ((grid0.coords t) 0).val = t.val / 12 ∧ ((grid0.coords t) 1).val = t.val % 12 :=
  (by decide +kernel : ∀ t : Fin grid0.N, ((grid0.coords t) 0).val = t.val / 12 ∧ ((grid0.coords t) 1).val = t.val % 12)

/-- The windows' block indices at point t. -/
theorem idx_facts : ∀ t : Fin cfg0.N,
    win0_0.index t (0 : Fin 3) = t.val % 12 ∧ win0_0.index t (1 : Fin 3) = t.val / 12 ∧ win0_0.index t (2 : Fin 3) = 0
    ∧ win0_1.index t (0 : Fin 3) = t.val % 12 ∧ win0_1.index t (1 : Fin 3) = t.val / 12 ∧ win0_1.index t (2 : Fin 3) = 0
    ∧ win0_2.index t (0 : Fin 4) = t.val % 12 ∧ win0_2.index t (1 : Fin 4) = t.val / 12 ∧ win0_2.index t (2 : Fin 4) = 0
      ∧ win0_2.index t (3 : Fin 4) = 0
    ∧ win0_3.index t (0 : Fin 2) = t.val / 12 ∧ win0_3.index t (1 : Fin 2) = 0
    ∧ win0_4.index t (0 : Fin 2) = t.val / 12 ∧ win0_4.index t (1 : Fin 2) = 0 :=
  (by decide +kernel : ∀ t : Fin grid0.N, _)

/-- The prediction block of point t: entry (r, d) is entry (t % 12, 32·(t/12) + r, d) of the array. -/
theorem iblk0_apply (c : Dev nD) (t : Fin cfg0.N) (r : Fin 32) (d : Fin 512) (k : S12x256x512.Idx)
    (hk0 : (k 0).val = t.val % 12) (hk1 : (k 1).val = 32 * (t.val / 12) + r.val) (hk2 : (k 2).val = d.val) :
    (iblk m c 0 t : Vec F S1x32x512 .f32) (ix3 (0 : Fin 1) r d) = (V m c main_v16 : S12x256x512.Idx → Elt F .f32) k := by
  obtain ⟨e0, e1, e2, -⟩ := idx_facts t
  unfold iblk
  rw [View.read_apply]
  show (V m c main_v16 : S12x256x512.Idx → Elt F .f32) _ = (V m c main_v16 : S12x256x512.Idx → Elt F .f32) k
  refine congrArg (V m c main_v16 : S12x256x512.Idx → Elt F .f32) (funext fun a => Fin.ext ?_)
  match a with
  | ⟨0, _⟩ => show win0_0.index t (0 : Fin 3) * 1 + 1 * 0 = (k 0).val; rw [e0, hk0]; omega
  | ⟨1, _⟩ => show win0_0.index t (1 : Fin 3) * 32 + 1 * r.val = (k 1).val; rw [e1, hk1]; omega
  | ⟨2, _⟩ => show win0_0.index t (2 : Fin 3) * 512 + 1 * d.val = (k 2).val; rw [e2, hk2]; omega

/-- The positive block of point t, likewise. -/
theorem iblk1_apply (c : Dev nD) (t : Fin cfg0.N) (r : Fin 32) (d : Fin 512) (k : S12x256x512.Idx)
    (hk0 : (k 0).val = t.val % 12) (hk1 : (k 1).val = 32 * (t.val / 12) + r.val) (hk2 : (k 2).val = d.val) :
    (iblk m c 1 t : Vec F S1x32x512 .f32) (ix3 (0 : Fin 1) r d) = (V m c main_arg1 : S12x256x512.Idx → Elt F .f32) k := by
  obtain ⟨-, -, -, e0, e1, e2, -⟩ := idx_facts t
  unfold iblk
  rw [View.read_apply]
  show (V m c main_arg1 : S12x256x512.Idx → Elt F .f32) _ = (V m c main_arg1 : S12x256x512.Idx → Elt F .f32) k
  refine congrArg (V m c main_arg1 : S12x256x512.Idx → Elt F .f32) (funext fun a => Fin.ext ?_)
  match a with
  | ⟨0, _⟩ => show win0_1.index t (0 : Fin 3) * 1 + 1 * 0 = (k 0).val; rw [e0, hk0]; omega
  | ⟨1, _⟩ => show win0_1.index t (1 : Fin 3) * 32 + 1 * r.val = (k 1).val; rw [e1, hk1]; omega
  | ⟨2, _⟩ => show win0_1.index t (2 : Fin 3) * 512 + 1 * d.val = (k 2).val; rw [e2, hk2]; omega

/-- The negative block of point t: entry (r, n, d) is entry (t % 12, 32·(t/12) + r, n, d) of the array. -/
theorem iblk2_apply (c : Dev nD) (t : Fin cfg0.N) (r : Fin 32) (n : Fin 128) (d : Fin 512) (k : S12x256x128x512.Idx)
    (hk0 : (k 0).val = t.val % 12) (hk1 : (k 1).val = 32 * (t.val / 12) + r.val) (hk2 : (k 2).val = n.val) (hk3 : (k 3).val = d.val) :
    (iblk m c 2 t : Vec F S1x32x128x512 .f32) (ix4 (0 : Fin 1) r n d) = (V m c main_v15 : S12x256x128x512.Idx → Elt F .f32) k := by
  obtain ⟨-, -, -, -, -, -, e0, e1, e2, e3, -⟩ := idx_facts t
  unfold iblk
  rw [View.read_apply]
  show (V m c main_v15 : S12x256x128x512.Idx → Elt F .f32) _ = (V m c main_v15 : S12x256x128x512.Idx → Elt F .f32) k
  refine congrArg (V m c main_v15 : S12x256x128x512.Idx → Elt F .f32) (funext fun a => Fin.ext ?_)
  match a with
  | ⟨0, _⟩ => show win0_2.index t (0 : Fin 4) * 1 + 1 * 0 = (k 0).val; rw [e0, hk0]; omega
  | ⟨1, _⟩ => show win0_2.index t (1 : Fin 4) * 32 + 1 * r.val = (k 1).val; rw [e1, hk1]; omega
  | ⟨2, _⟩ => show win0_2.index t (2 : Fin 4) * 128 + 1 * n.val = (k 2).val; rw [e2, hk2]; omega
  | ⟨3, _⟩ => show win0_2.index t (3 : Fin 4) * 512 + 1 * d.val = (k 3).val; rw [e3, hk3]; omega

end Cert.KernelIdeal.Value

end
-- ==== Proof.Accum.lean ====
/-
  What the two output row blocks hold after each visit, and what the two output arrays hold after the run.

  Round q (of 8) visits the 12 steps in order on rows 32q … 32q + 31. After the visit of step s the block's columns
  0 … s hold the steps' values of those rows — step j's log-ratio, resp. its "all beaten" mark — and the later
  columns zero: the first visit of a round starts from the zero block, every visit adds its value in its own column
  and its value times zero in the others. The block is written back after step 11, when all 12 columns are filled;
  the eight rounds' blocks tile the [256, 12] arrays. So entry (b, j) of the first output ends as step j's log-ratio
  of row b, and of the second output as step j's mark of row b.
-/
import proofs.«109785_j58669253263549_2_alg».proof.Proof.Pieces
import proofs.«109785_j58669253263549_2_alg».proof.Proof.PointRows
import proofs.«109785_j58669253263549_2_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Point Cert.Contrast

variable (m : (ℓ : Loc nD τ sig) → Buf (Elt Ideal) ℓ)

/-- The predictions, the positives and the gathered negatives as the region finds them. -/
def Pk (c : Dev nD) : SP.Idx → EReal := (V m c main_v16 : S12x256x512.Idx → Elt Ideal .f32)
def Qk (c : Dev nD) : SP.Idx → EReal := (V m c main_arg1 : S12x256x512.Idx → Elt Ideal .f32)
def Gk (c : Dev nD) : SN.Idx → EReal := (V m c main_v15 : S12x256x128x512.Idx → Elt Ideal .f32)

/-- Visit n is step n % 12 of round n / 12: its row r is batch row 32·(n/12) + r. -/
def stepOf (n : ℕ) : Fin 12 := ⟨n % 12, Nat.mod_lt _ (by decide)⟩
def rowOf (n : ℕ) (r : Fin 32) : Fin 256 := ⟨(32 * (n / 12) + r.val) % 256, Nat.mod_lt _ (by decide)⟩

/-- The values visit n contributes: the log-ratios and the marks of its 32 rows. -/
def Xstep (c : Dev nD) (n : ℕ) (r : Fin 32) : EReal := step (Pk m c) (Qk m c) (Gk m c) (stepOf n) (rowOf n r)
def Xbeat (c : Dev nD) (n : ℕ) (r : Fin 32) : EReal := beaten (Pk m c) (Qk m c) (Gk m c) (stepOf n) (rowOf n r)

/-! ## A visit's blocks are restrictions of the arrays -/

theorem ptPos_blk (c : Dev nD) (t : Fin cfg0.N) (r : Fin 32) :
    ptPos (iblk m c 0 t) (iblk m c 1 t) r = pos (Pk m c) (Qk m c) (stepOf t.val) (rowOf t.val r) := by
  have hN : t.val < 96 := lt_of_lt_of_eq t.isLt N_0
  unfold ptPos pos
  refine Finset.sum_congr rfl fun d _ => ?_
  rw [iblk0_apply m c t r d (ix3 (stepOf t.val) (rowOf t.val r) d) rfl
      (by show (32 * (t.val / 12) + r.val) % 256 = _; have := r.isLt; omega) rfl,
    iblk1_apply m c t r d (ix3 (stepOf t.val) (rowOf t.val r) d) rfl
      (by show (32 * (t.val / 12) + r.val) % 256 = _; have := r.isLt; omega) rfl]
  rfl

theorem ptNeg_blk (c : Dev nD) (t : Fin cfg0.N) (r : Fin 32) (n : Fin 128) :
    ptNeg (iblk m c 0 t) (iblk m c 2 t) r n = neg (Pk m c) (Gk m c) (stepOf t.val) (rowOf t.val r) n := by
  have hN : t.val < 96 := lt_of_lt_of_eq t.isLt N_0
  unfold ptNeg neg
  refine Finset.sum_congr rfl fun d _ => ?_
  rw [iblk0_apply m c t r d (ix3 (stepOf t.val) (rowOf t.val r) d) rfl
      (by show (32 * (t.val / 12) + r.val) % 256 = _; have := r.isLt; omega) rfl,
    iblk2_apply m c t r n d (ix4 (stepOf t.val) (rowOf t.val r) n d) rfl
      (by show (32 * (t.val / 12) + r.val) % 256 = _; have := r.isLt; omega) rfl rfl]
  rfl

/-- The visit's log-ratios are the arrays' at its step and rows. -/
theorem step_visit (c : Dev nD) (t : Fin cfg0.N) (r : Fin 32) :
    Ideal.log (quot (iblk m c 0 t) (iblk m c 1 t) (iblk m c 2 t) (ix1 r)) = Xstep m c t.val r := by
  refine (congrArg Ideal.log (quotient_row (iblk m c 0 t) (iblk m c 1 t) (iblk m c 2 t) r)).trans ?_
  unfold Xstep step
  rw [ptPos_blk, show (fun n => ptNeg (iblk m c 0 t) (iblk m c 2 t) r n) = fun n => neg (Pk m c) (Gk m c) (stepOf t.val) (rowOf t.val r) n from
    funext fun n => ptNeg_blk m c t r n]

/-- The visit's marks are the arrays' at its step and rows. -/
theorem beat_visit (c : Dev nD) (t : Fin cfg0.N) (r : Fin 32) :
    (if (1 : EReal) ≤ mins (iblk m c 0 t) (iblk m c 1 t) (iblk m c 2 t) (ix1 r) then (1 : EReal) else 0) = Xbeat m c t.val r := by
  unfold Xbeat
  refine beaten_eq_of_iff _ _ _ _ _ _ ((minimum_row (iblk m c 0 t) (iblk m c 1 t) (iblk m c 2 t) r).trans ?_)
  rw [ptPos_blk]
  exact forall_congr' fun n => by rw [ptNeg_blk]

/-! ## One visit's effect on a row block -/

theorem first_visit3 (c : Dev nD) (t : Fin cfg0.N) (hm : t.val % 12 = 0) (r : Fin 32) (j : Fin 12) :
    (outsAt0 m c t.val t.isLt).1 (ix2 r j) = 0 + Xstep m c t.val r * (if j.val = t.val % 12 then 1 else 0) := by
  rw [outsAt0_A m c t hm]
  show out0_A_3 c (grid0.coords t) (ms0_0 t) (hs0_0 t) (ms0_1 t) (hs0_1 t) (ms0_2 t) (hs0_2 t) (ms0_3 t) (hs0_3 t) (ms0_4 t) (hs0_4 t)
    ((hcond0_0 t).mpr hm) (iblk m c 0 t) (iblk m c 1 t) (iblk m c 2 t) (ix2 r j) = _
  rw [out_A3, (coords_facts t).2, out3_entry (t.val % 12) (Nat.mod_lt _ (by decide)), zero_entry3, step_visit]

theorem first_visit4 (c : Dev nD) (t : Fin cfg0.N) (hm : t.val % 12 = 0) (r : Fin 32) (j : Fin 12) :
    (outsAt0 m c t.val t.isLt).2 (ix2 r j) = 0 + Xbeat m c t.val r * (if j.val = t.val % 12 then 1 else 0) := by
  rw [outsAt0_A m c t hm]
  show out0_A_4 c (grid0.coords t) (ms0_0 t) (hs0_0 t) (ms0_1 t) (hs0_1 t) (ms0_2 t) (hs0_2 t) (ms0_3 t) (hs0_3 t) (ms0_4 t) (hs0_4 t)
    ((hcond0_0 t).mpr hm) (iblk m c 0 t) (iblk m c 1 t) (iblk m c 2 t) (ix2 r j) = _
  rw [out_A4, (coords_facts t).2, out4_entry (t.val % 12) (Nat.mod_lt _ (by decide)), zero_entry5, beat_visit]

theorem later_visit3 (c : Dev nD) (t : Fin cfg0.N) (hm : ¬t.val % 12 = 0) (r : Fin 32) (j : Fin 12) :
    (outsAt0 m c t.val t.isLt).1 (ix2 r j)
      = (outsAt0 m c (t.val - 1) (Nat.lt_of_le_of_lt (Nat.sub_le _ _) t.isLt)).1 (ix2 r j)
        + Xstep m c t.val r * (if j.val = t.val % 12 then 1 else 0) := by
  rw [outsAt0_B m c t hm]
  show out0_B_3 c (grid0.coords t) (ms0_0 t) (hs0_0 t) (ms0_1 t) (hs0_1 t) (ms0_2 t) (hs0_2 t) (ms0_3 t) (hs0_3 t) (ms0_4 t) (hs0_4 t)
    (fun h => hm ((hcond0_0 t).mp h)) (iblk m c 0 t) (iblk m c 1 t) (iblk m c 2 t)
    (outsAt0 m c (t.val - 1) (Nat.lt_of_le_of_lt (Nat.sub_le _ _) t.isLt)).1
    (outsAt0 m c (t.val - 1) (Nat.lt_of_le_of_lt (Nat.sub_le _ _) t.isLt)).2 (ix2 r j) = _
  rw [out_B3, (coords_facts t).2, out3_entry (t.val % 12) (Nat.mod_lt _ (by decide)), step_visit]

theorem later_visit4 (c : Dev nD) (t : Fin cfg0.N) (hm : ¬t.val % 12 = 0) (r : Fin 32) (j : Fin 12) :
    (outsAt0 m c t.val t.isLt).2 (ix2 r j)
      = (outsAt0 m c (t.val - 1) (Nat.lt_of_le_of_lt (Nat.sub_le _ _) t.isLt)).2 (ix2 r j)
        + Xbeat m c t.val r * (if j.val = t.val % 12 then 1 else 0) := by
  rw [outsAt0_B m c t hm]
  show out0_B_4 c (grid0.coords t) (ms0_0 t) (hs0_0 t) (ms0_1 t) (hs0_1 t) (ms0_2 t) (hs0_2 t) (ms0_3 t) (hs0_3 t) (ms0_4 t) (hs0_4 t)
    (fun h => hm ((hcond0_0 t).mp h)) (iblk m c 0 t) (iblk m c 1 t) (iblk m c 2 t)
    (outsAt0 m c (t.val - 1) (Nat.lt_of_le_of_lt (Nat.sub_le _ _) t.isLt)).1
    (outsAt0 m c (t.val - 1) (Nat.lt_of_le_of_lt (Nat.sub_le _ _) t.isLt)).2 (ix2 r j) = _
  rw [out_B4, (coords_facts t).2, out4_entry (t.val % 12) (Nat.mod_lt _ (by decide)), beat_visit]

/-! ## The row blocks after each visit -/

theorem rows3 (c : Dev nD) (n : ℕ) (h : n < cfg0.N) (r : Fin 32) (j : Fin 12) :
    (outsAt0 m c n h).1 (ix2 r j) = if j.val ≤ n % 12 then Xstep m c (12 * (n / 12) + j.val) r else 0 := by
  have hN : cfg0.N = 96 := N_0
  exact masked_rows (fun n h r j => (outsAt0 m c n (lt_of_lt_of_eq h hN.symm)).1 (ix2 r j)) (Xstep m c)
    (fun n h hm r j => first_visit3 m c ⟨n, lt_of_lt_of_eq h hN.symm⟩ hm r j)
    (fun n h hm r j => later_visit3 m c ⟨n + 1, lt_of_lt_of_eq h hN.symm⟩ hm r j)
    n (lt_of_lt_of_eq h hN) r j

theorem rows4 (c : Dev nD) (n : ℕ) (h : n < cfg0.N) (r : Fin 32) (j : Fin 12) :
    (outsAt0 m c n h).2 (ix2 r j) = if j.val ≤ n % 12 then Xbeat m c (12 * (n / 12) + j.val) r else 0 := by
  have hN : cfg0.N = 96 := N_0
  exact masked_rows (fun n h r j => (outsAt0 m c n (lt_of_lt_of_eq h hN.symm)).2 (ix2 r j)) (Xbeat m c)
    (fun n h hm r j => first_visit4 m c ⟨n, lt_of_lt_of_eq h hN.symm⟩ hm r j)
    (fun n h hm r j => later_visit4 m c ⟨n + 1, lt_of_lt_of_eq h hN.symm⟩ hm r j)
    n (lt_of_lt_of_eq h hN) r j

end Cert.KernelIdeal.Value

end
-- ==== Proof.Final.lean ====
/-
  The two output arrays after the run.

  A round's row block is written back once, after its twelfth visit, when column j holds step j's value of the
  round's rows; round q's block is rows 32q … 32q + 31 of the [256, 12] array, and the eight rounds cover it. So
  the first output ends holding, at (b, j), step j's log-ratio of row b, and the second step j's mark of row b.
-/
import proofs.«109785_j58669253263549_2_alg».proof.Proof.Accum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Point Cert.Contrast

variable (m : (ℓ : Loc nD τ sig) → Buf (Elt Ideal) ℓ)

/-- The log-ratios and the marks laid out rows × steps. -/
def A3 (c : Dev nD) : S256x12.Idx → EReal := fun i =>
  step (Pk m c) (Qk m c) (Gk m c) ⟨(i 1).val, (i 1).isLt⟩ ⟨(i 0).val, (i 0).isLt⟩
def A4 (c : Dev nD) : S256x12.Idx → EReal := fun i =>
  beaten (Pk m c) (Qk m c) (Gk m c) ⟨(i 1).val, (i 1).isLt⟩ ⟨(i 0).val, (i 0).isLt⟩

/-- An index of the output array is in point t's block iff each coordinate is in the block's range on its axis. -/
theorem mem_blk3 (t : Fin cfg0.N) (i : S256x12.Idx) :
    i ∈ ((cfg0.win 3).blk t).view.set ↔ ∀ a : Fin 2, win0_3.index t a * S32x12.size a ≤ (i a).val ∧ (i a).val < win0_3.index t a * S32x12.size a + S32x12.size a := by
  show i ∈ ((View.whole main_v17_0).slice (win0_3.rect t)).set ↔ _
  rw [View.set_slice_whole, Rect.mem_set_unit]
  exact Iff.rfl
theorem mem_blk4 (t : Fin cfg0.N) (i : S256x12.Idx) :
    i ∈ ((cfg0.win 4).blk t).view.set ↔ ∀ a : Fin 2, win0_4.index t a * S32x12.size a ≤ (i a).val ∧ (i a).val < win0_4.index t a * S32x12.size a + S32x12.size a := by
  show i ∈ ((View.whole main_v17_1).slice (win0_4.rect t)).set ↔ _
  rw [View.set_slice_whole, Rect.mem_set_unit]
  exact Iff.rfl

/-- What a round's last visit writes back is the round's rows of the first output. -/
theorem flushed_eq3 (c : Dev nD) (t : Fin cfg0.N) (hf : (cfg0.win 3).flush t = true) :
    (dats m 0 c).flushed 3 t = ((cfg0.win 3).blk t).view.read (Elt Ideal) (A3 m c) := by
  have hN : t.val < 96 := lt_of_lt_of_eq t.isLt N_0
  have h11 : t.val % 12 = 11 := (flush0_3 t).mp hf
  obtain ⟨-, -, -, -, -, -, -, -, -, -, e0, e1, -, -⟩ := idx_facts t
  show (cfg0.win 3).cut (grid0.coords t) ((dats m 0 c).after 3 t) = _
  rw [after0_3]
  refine funext fun (y : S32x12.Idx) => ?_
  obtain ⟨r, j, rfl⟩ : ∃ (r : Fin 32) (j : Fin 12), y = ix2 r j := ⟨y 0, y 1, eq_ix2 y⟩
  rw [View.read_apply]
  show (outsAt0 m c t.val t.isLt).1 (ix2 r j) = A3 m c (((cfg0.win 3).blk t).view.emb (ix2 r j))
  rw [rows3 m c t.val t.isLt r j, if_pos (by have := j.isLt; omega)]
  unfold Xstep A3
  refine congrArg₂ (step (Pk m c) (Qk m c) (Gk m c)) (Fin.ext ?_) (Fin.ext ?_)
  · show (12 * (t.val / 12) + j.val) % 12 = win0_3.index t (1 : Fin 2) * 12 + 1 * j.val
    rw [e1]; have := j.isLt; omega
  · show (32 * ((12 * (t.val / 12) + j.val) / 12) + r.val) % 256 = win0_3.index t (0 : Fin 2) * 32 + 1 * r.val
    rw [e0]; have := j.isLt; have := r.isLt; omega

theorem flushed_eq4 (c : Dev nD) (t : Fin cfg0.N) (hf : (cfg0.win 4).flush t = true) :
    (dats m 0 c).flushed 4 t = ((cfg0.win 4).blk t).view.read (Elt Ideal) (A4 m c) := by
  have hN : t.val < 96 := lt_of_lt_of_eq t.isLt N_0
  have h11 : t.val % 12 = 11 := (flush0_4 t).mp hf
  obtain ⟨-, -, -, -, -, -, -, -, -, -, -, -, e0, e1⟩ := idx_facts t
  show (cfg0.win 4).cut (grid0.coords t) ((dats m 0 c).after 4 t) = _
  rw [after0_4]
  refine funext fun (y : S32x12.Idx) => ?_
  obtain ⟨r, j, rfl⟩ : ∃ (r : Fin 32) (j : Fin 12), y = ix2 r j := ⟨y 0, y 1, eq_ix2 y⟩
  rw [View.read_apply]
  show (outsAt0 m c t.val t.isLt).2 (ix2 r j) = A4 m c (((cfg0.win 4).blk t).view.emb (ix2 r j))
  rw [rows4 m c t.val t.isLt r j, if_pos (by have := j.isLt; omega)]
  unfold Xbeat A4
  refine congrArg₂ (beaten (Pk m c) (Qk m c) (Gk m c)) (Fin.ext ?_) (Fin.ext ?_)
  · show (12 * (t.val / 12) + j.val) % 12 = win0_4.index t (1 : Fin 2) * 12 + 1 * j.val
    rw [e1]; have := j.isLt; omega
  · show (32 * ((12 * (t.val / 12) + j.val) / 12) + r.val) % 256 = win0_4.index t (0 : Fin 2) * 32 + 1 * r.val
    rw [e0]; have := j.isLt; have := r.isLt; omega

/-- Row b of the output is in the block of round b / 32, written back at that round's last visit. -/
theorem cover3 (i : S256x12.Idx) : ∃ t : Fin cfg0.N, (cfg0.win 3).flush t = true ∧ i ∈ ((cfg0.win 3).blk t).view.set := by
  have h0 : (i 0).val < 256 := (i 0).isLt
  have h1 : (i 1).val < 12 := (i 1).isLt
  let t : Fin cfg0.N := ⟨12 * ((i 0).val / 32) + 11, lt_of_lt_of_eq (by omega) N_0.symm⟩
  obtain ⟨-, -, -, -, -, -, -, -, -, -, e0, e1, -, -⟩ := idx_facts t
  have hv : t.val = 12 * ((i 0).val / 32) + 11 := rfl
  refine ⟨t, (flush0_3 t).mpr (by rw [hv]; omega), ?_⟩
  rw [mem_blk3]
  intro a
  match a with
  | ⟨0, _⟩ =>
    show win0_3.index t (0 : Fin 2) * 32 ≤ (i 0).val ∧ (i 0).val < win0_3.index t (0 : Fin 2) * 32 + 32
    rw [e0, hv]; omega
  | ⟨1, _⟩ =>
    show win0_3.index t (1 : Fin 2) * 12 ≤ (i 1).val ∧ (i 1).val < win0_3.index t (1 : Fin 2) * 12 + 12
    rw [e1]; omega

theorem cover4 (i : S256x12.Idx) : ∃ t : Fin cfg0.N, (cfg0.win 4).flush t = true ∧ i ∈ ((cfg0.win 4).blk t).view.set := by
  have h0 : (i 0).val < 256 := (i 0).isLt
  have h1 : (i 1).val < 12 := (i 1).isLt
  let t : Fin cfg0.N := ⟨12 * ((i 0).val / 32) + 11, lt_of_lt_of_eq (by omega) N_0.symm⟩
  obtain ⟨-, -, -, -, -, -, -, -, -, -, -, -, e0, e1⟩ := idx_facts t
  have hv : t.val = 12 * ((i 0).val / 32) + 11 := rfl
  refine ⟨t, (flush0_4 t).mpr (by rw [hv]; omega), ?_⟩
  rw [mem_blk4]
  intro a
  match a with
  | ⟨0, _⟩ =>
    show win0_4.index t (0 : Fin 2) * 32 ≤ (i 0).val ∧ (i 0).val < win0_4.index t (0 : Fin 2) * 32 + 32
    rw [e0, hv]; omega
  | ⟨1, _⟩ =>
    show win0_4.index t (1 : Fin 2) * 12 ≤ (i 1).val ∧ (i 1).val < win0_4.index t (1 : Fin 2) * 12 + 12
    rw [e1]; omega

/-- The output arrays after the run. -/
theorem final3 (c : Dev nD) : (dats m 0 c).arrAt 3 cfg0.N = A3 m c :=
  (dats m 0 c).arrAt_eq_of_cover 3 (A3 m c) (flushed_eq3 m c) cover3
theorem final4 (c : Dev nD) : (dats m 0 c).arrAt 4 cfg0.N = A4 m c :=
  (dats m 0 c).arrAt_eq_of_cover 4 (A4 m c) (flushed_eq4 m c) cover4

end Cert.KernelIdeal.Value

end
-- ==== Proof.KernelRun.lean ====
/-
  The kernel program's run, read: its two results as functions of the two output arrays.

  After the region the program sums each row of the first output over its 12 steps, divides by 1548, sums the 256
  rows and divides by 256 — the loss — and sums each column of the second output over the 256 rows — the counts of
  rows whose positive beat every negative, per step.
-/
import proofs.«109785_j58669253263549_2_alg».proof.Proof.Final
import Idealize.ShloMosaic.Lib.StableHlo.Run
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.Contrast

variable (m : (ℓ : Loc nD τ sig) → Buf (Elt Ideal) ℓ) (ρ : Dev nD → PrngReg)

/-- The 12 steps of each row summed, and the 256 rows of each step summed. -/
def rowTotals (A : (⟨S256x12, .f32⟩ : BufTy).Contents (Elt Ideal)) : (⟨S256, .f32⟩ : BufTy).Contents (Elt Ideal) :=
  Host.reduceAdd (F := Ideal) A (constant (F := Ideal) S_ .f32 0x00000000#32) reducesTo_S256x12_S256_d1 h_S_
def colTotals (A : (⟨S256x12, .f32⟩ : BufTy).Contents (Elt Ideal)) : (⟨S12, .f32⟩ : BufTy).Contents (Elt Ideal) :=
  Host.reduceAdd (F := Ideal) A (constant (F := Ideal) S_ .f32 0x00000000#32) reducesTo_S256x12_S12_d0 h_S_

/-- The loss from the rows' totals: each divided by 1548, the 256 quotients summed, the sum divided by 256. -/
def lossOf (v : (⟨S256, .f32⟩ : BufTy).Contents (Elt Ideal)) : (⟨S_, .f32⟩ : BufTy).Contents (Elt Ideal) :=
  Host.divf (F := Ideal)
    (Host.reduceAdd (F := Ideal)
      (Host.divf (F := Ideal) v (broadcastInDim S256 ![] bcast_S_S256 (constant (F := Ideal) S_ .f32 0x44C18000#32)))
      (constant (F := Ideal) S_ .f32 0x00000000#32) reducesTo_S256_S_d0 h_S_)
    (constant (F := Ideal) S_ .f32 0x43800000#32)

/-- A row's total is zero plus the sum of its 12 entries; a column's total zero plus the sum of its 256 entries. -/
theorem rowTotals_apply (A : (⟨S256x12, .f32⟩ : BufTy).Contents (Elt Ideal)) (b : Fin 256) :
    rowTotals A (ix1 b) = Ideal.ofBits .f32 0x00000000#32 + ∑ k : Fin 12, A (ix2 b k) := by
  unfold rowTotals
  simp only [Host.reduceAdd, Ideal.hostReduceAdd_def]
  rw [Ideal.hostReduceAdd_single reducesTo_S256x12_S256_d1 (by decide)]
  refine congrArg (_ + ·) (Finset.sum_congr rfl fun k _ => ?_)
  exact congrArg A (funext fun a => Fin.ext (by match a with | ⟨0, _⟩ => rfl | ⟨1, _⟩ => rfl))

theorem colTotals_apply (A : (⟨S256x12, .f32⟩ : BufTy).Contents (Elt Ideal)) (j : Fin 12) :
    colTotals A (ix1 j) = Ideal.ofBits .f32 0x00000000#32 + ∑ b : Fin 256, A (ix2 b j) := by
  unfold colTotals
  simp only [Host.reduceAdd, Ideal.hostReduceAdd_def]
  rw [Ideal.hostReduceAdd_single reducesTo_S256x12_S12_d0 (by decide)]
  refine congrArg (_ + ·) (Finset.sum_congr rfl fun k _ => ?_)
  exact congrArg A (funext fun a => Fin.ext (by match a with | ⟨0, _⟩ => rfl | ⟨1, _⟩ => rfl))

/-- The loss the program ends with. -/
theorem tail22 (c : Dev nD) :
    Pipeline.afterTail₀ cfgs (dats m) 0 (V0 m) [hostOps1] c main_v22 = lossOf (rowTotals (A3 m c)) := by
  unfold Pipeline.afterTail₀
  show StableHlo.after hostOps1 _ (Proc.devRef .tc main_v22) = _
  after_results
  rw [Pipeline.withArrays_arr spec0 launch0.win.arr_inj c _ _ 3, final3]
  rfl

/-- The counts the program ends with. -/
theorem tail23 (c : Dev nD) :
    Pipeline.afterTail₀ cfgs (dats m) 0 (V0 m) [hostOps1] c main_v23 = colTotals (A4 m c) := by
  unfold Pipeline.afterTail₀
  show StableHlo.after hostOps1 _ (Proc.devRef .tc main_v23) = _
  after_results
  rw [Pipeline.withArrays_arr spec0 launch0.win.arr_inj c _ _ 4, final4]
  rfl

/-- Every weakly fair execution ends with the loss and the counts of the region-entry arrays, the arguments unchanged. -/
theorem run : θ_run defs (onTc (τ := τ) (main (F := Ideal))) ⟨m, fun _ => 0, ρ⟩ fun r => ∀ c : Dev nD,
      r.2.mem ((c.tc : Thread nD τ).loc main_v22) = lossOf (rowTotals (A3 m c))
      ∧ r.2.mem ((c.tc : Thread nD τ).loc main_v23) = colTotals (A4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v22 (Pipeline.mem_restRefs_of main_v22 (by decide) (by decide))).trans (tail22 m c),
      ((h c).2 main_v23 (Pipeline.mem_restRefs_of main_v23 (by decide) (by decide))).trans (tail23 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Value

end
-- ==== Proof.Reference.lean ====
/-
  The reference, stage by stage, is the contrastive loss of its own predictions, positives and gathered negatives.

  With P the slice of the first argument after its first plane, Q the second argument and G the gathered
  negatives, the reference's positive scores are pos P Q, its negative scores neg P G, its per-step log-ratios
  step P Q G, and its "all negatives beaten" marks — a conjunction over the 128 comparisons, converted to a
  float — beaten P Q G. Each stage is read at coordinates from the stage before.
-/
import proofs.«109785_j58669253263549_2_alg».proof.Proof.Gen.ReferenceIdeal.Read
import proofs.«109785_j58669253263549_2_alg».proof.Proof.Spec

noncomputable section

namespace Cert.ReferenceIdeal.RefValue

open Cert.ReferenceIdeal Cert.ReferenceIdeal.Gen Cert.ReferenceIdeal.Read Cert.Contrast Idealize.ShloMosaic Idealize.ShloMosaic.ValueIdx

variable (x0 : (⟨S13x256x512, .f32⟩ : BufTy).Contents (Elt Ideal)) (x1 : (⟨S12x256x512, .f32⟩ : BufTy).Contents (Elt Ideal))
  (x2 x3 : (⟨S12x256x128, .i32⟩ : BufTy).Contents (Elt Ideal))

/-- The reference's predictions, positives and gathered negatives. -/
def Pr : SP.Idx → EReal := val_main_v16 (F := Ideal) x0
def Gr : SN.Idx → EReal := val_main_v15 (F := Ideal) x0 x1 x2 x3

theorem idx19 (t : Fin 12) (b : Fin 256) (k : Fin 512) : idx_main_v19 (ix2 t b) k = ix3 t b k :=
  funext fun a => Fin.ext (by match a with | ⟨0, _⟩ => rfl | ⟨1, _⟩ => rfl | ⟨2, _⟩ => rfl)
theorem idx24 (t : Fin 12) (b : Fin 256) (n : Fin 128) (k : Fin 512) : idx_main_v24 (ix3 t b n) k = ix4 t b n k :=
  funext fun a => Fin.ext (by match a with | ⟨0, _⟩ => rfl | ⟨1, _⟩ => rfl | ⟨2, _⟩ => rfl | ⟨3, _⟩ => rfl)
theorem idx2021 (t : Fin 12) (b : Fin 256) (n : Fin 128) (k : Fin 512) : idx_main_v20 (idx_main_v21 (ix4 t b n k)) = ix3 t b k :=
  funext fun a => Fin.ext (by match a with | ⟨0, _⟩ => rfl | ⟨1, _⟩ => rfl | ⟨2, _⟩ => rfl)
theorem idx25 (t : Fin 12) (b : Fin 256) (n : Fin 128) : idx_main_v25 (ix2 t b) n = ix3 t b n :=
  funext fun a => Fin.ext (by match a with | ⟨0, _⟩ => rfl | ⟨1, _⟩ => rfl | ⟨2, _⟩ => rfl)
theorem idx3435 (t : Fin 12) (b : Fin 256) (n : Fin 128) : idx_main_v34 (idx_main_v35 (ix3 t b n)) = ix2 t b :=
  funext fun a => Fin.ext (by match a with | ⟨0, _⟩ => rfl | ⟨1, _⟩ => rfl)

/-- The positive's scores. -/
theorem v19_eq (t : Fin 12) (b : Fin 256) :
    val_main_v19 (F := Ideal) x0 x1 (ix2 t b) = pos (Pr x0) x1 t b := by
  rw [val_main_v19_apply]
  show Ideal.ofBits .f32 0x00000000#32 + _ = _
  rw [Ideal.ofBits_zero_f32, zero_add]
  unfold pos
  refine Finset.sum_congr rfl fun d _ => ?_
  rw [idx19]
  rfl

/-- The negatives' scores. -/
theorem v24_eq (t : Fin 12) (b : Fin 256) (n : Fin 128) :
    val_main_v24 (F := Ideal) x0 x1 x2 x3 (ix3 t b n) = neg (Pr x0) (Gr x0 x1 x2 x3) t b n := by
  rw [val_main_v24_apply]
  show Ideal.ofBits .f32 0x00000000#32 + _ = _
  rw [Ideal.ofBits_zero_f32, zero_add]
  unfold neg
  refine Finset.sum_congr rfl fun d _ => ?_
  rw [idx24]
  show Ideal.exp (val_main_v21 (F := Ideal) x0 (ix4 t b n d) * val_main_v15 (F := Ideal) x0 x1 x2 x3 (ix4 t b n d)) = _
  rw [val_main_v21_apply, val_main_v20_apply, idx2021]
  rfl

/-- The per-step log-ratios. -/
theorem v28_eq (t : Fin 12) (b : Fin 256) :
    val_main_v28 (F := Ideal) x0 x1 x2 x3 (ix2 t b) = step (Pr x0) x1 (Gr x0 x1 x2 x3) t b := by
  show Ideal.log (Ideal.div (val_main_v19 (F := Ideal) x0 x1 (ix2 t b))
    (val_main_v19 (F := Ideal) x0 x1 (ix2 t b) + val_main_v25 (F := Ideal) x0 x1 x2 x3 (ix2 t b))) = _
  rw [val_main_v25_apply]
  show Ideal.log (Ideal.div _ (_ + (Ideal.ofBits .f32 0x00000000#32 + _))) = _
  rw [Ideal.ofBits_zero_f32, zero_add, v19_eq]
  unfold step
  refine congrArg (fun s => Ideal.log (Ideal.div _ (_ + s))) (Finset.sum_congr rfl fun n _ => ?_)
  rw [idx25, v24_eq]

/-- A one-bit word read as an unsigned integer is the 0/1 mark. -/
theorem mark_ofBool (q : Bool) : (FloatOps.uitofp (F := Ideal) .f32 (BitVec.ofBool q) : EReal) = if q = true then 1 else 0 := by
  cases q
  · show (((0 : ℕ) : ℝ) : EReal) = _
    simp
  · show (((1 : ℕ) : ℝ) : EReal) = _
    simp

/-- The conjunction of the 128 comparison words is the word of "every comparison holds". -/
theorem fold_andi_marks (q : Fin 128 → Prop) [DecidablePred q] :
    ∃ Q : Bool, (Finset.univ : Finset (Fin 128)).fold IntOp.andi 1#1 (fun n => BitVec.ofBool (decide (q n))) = BitVec.ofBool Q
      ∧ (Q = true ↔ ∀ n, q n) :=
  ⟨_, fold_andi_ofBool Finset.univ (fun n => decide (q n)), by simp only [decide_eq_true_eq, Finset.mem_univ, forall_const]⟩

/-- The "all negatives beaten" marks. -/
theorem v38_eq (t : Fin 12) (b : Fin 256) :
    val_main_v38 (F := Ideal) x0 x1 x2 x3 (ix2 t b) = beaten (Pr x0) x1 (Gr x0 x1 x2 x3) t b := by
  obtain ⟨Q, hQ, hiff⟩ : ∃ Q : Bool, val_main_v37 (F := Ideal) x0 x1 x2 x3 (ix2 t b) = BitVec.ofBool Q
      ∧ (Q = true ↔ ∀ n : Fin 128, neg (Pr x0) (Gr x0 x1 x2 x3) t b n < pos (Pr x0) x1 t b) := by
    have H : S12x256x128.Reduces [2] S12x256 := by decide
    have hf : (fun n : Fin 128 => val_main_v36 (F := Ideal) x0 x1 x2 x3 (H.lift (ix2 t b) n))
        = fun n => BitVec.ofBool (decide (neg (Pr x0) (Gr x0 x1 x2 x3) t b n < pos (Pr x0) x1 t b)) := funext fun n => by
      have e : H.lift (ix2 t b) n = ix3 t b n :=
        funext fun a => Fin.ext (by match a with | ⟨0, _⟩ => rfl | ⟨1, _⟩ => rfl | ⟨2, _⟩ => rfl)
      rw [e]
      show Ideal.cmp .ogt (val_main_v35 (F := Ideal) x0 x1 (ix3 t b n)) (val_main_v24 (F := Ideal) x0 x1 x2 x3 (ix3 t b n)) = _
      rw [val_main_v35_apply, val_main_v34_apply, idx3435, v19_eq, v24_eq]
      rfl
    obtain ⟨Q, h1, h2⟩ := fold_andi_marks (fun n => neg (Pr x0) (Gr x0 x1 x2 x3) t b n < pos (Pr x0) x1 t b)
    refine ⟨Q, ?_, h2⟩
    unfold val_main_v37
    refine (Host.reduce_eq_fold_single IntOp.andi _ _ reducesTo_S12x256x128_S12x256_d2 H h_S_ (ix2 t b)).trans ?_
    exact (congrArg (fun f => Finset.fold IntOp.andi 1#1 f (Finset.univ : Finset (Fin 128))) hf).trans h1
  show (FloatOps.uitofp (F := Ideal) .f32 (val_main_v37 (F := Ideal) x0 x1 x2 x3 (ix2 t b)) : EReal) = _
  rw [hQ, mark_ofBool]
  exact beaten_eq_of_iff _ _ _ _ _ _ hiff

end Cert.ReferenceIdeal.RefValue

end
-- ==== Proof.Bridge.lean ====
/-
  The two programs compute one loss and one vector of counts.

  Before the region the kernel program forms, by the same host operations as the reference, the predictions (the
  first argument without its first plane), and the negatives gathered from the bank of the first plane and the
  positives; so the arrays its region finds are the reference's own. Its first output holds the reference's
  log-ratios transposed (rows × steps against steps × rows) and its second the reference's marks transposed:
  summing a row of the one over its 12 steps is summing the reference's column, summing a column of the other over
  its 256 rows is summing the reference's row, and from the rows' totals on the two programs apply the same
  operations (divide by 1548, sum, divide by 256).
-/
import proofs.«109785_j58669253263549_2_alg».proof.Proof.KernelRun
import proofs.«109785_j58669253263549_2_alg».proof.Proof.Reference

set_option maxRecDepth 16384

noncomputable section

open Idealize.ShloMosaic Idealize.ShloMosaic.TcCoe Idealize.SL.Sem Idealize.ShloMosaic.ValueIdx

namespace Cert.Proof.Bridge

open Cert.Contrast
open Cert.KernelIdeal.Value (Pk Qk Gk A3 A4 rowTotals colTotals lossOf)
open Cert.ReferenceIdeal.RefValue (Pr Gr)

variable (m : (ℓ : Loc Cert.KernelIdeal.nD Cert.KernelIdeal.τ Cert.KernelIdeal.sig) → Buf (Elt Ideal) ℓ)
  (c : Dev Cert.KernelIdeal.nD)

/-- The region finds the reference's predictions, -/
theorem Pk_eq : Pk m c = Pr (m ((c.tc : Thread Cert.KernelIdeal.nD Cert.KernelIdeal.τ).loc Cert.KernelIdeal.main_arg0)) := by
  show StableHlo.after Cert.KernelIdeal.Gen.hostOps0 (fun b => m (c, b)) (Proc.devRef .tc Cert.KernelIdeal.main_v16) = _
  after_results
  rfl

/-- the positives as launched, -/
theorem Qk_eq : Qk m c = m ((c.tc : Thread Cert.KernelIdeal.nD Cert.KernelIdeal.τ).loc Cert.KernelIdeal.main_arg1) :=
  Cert.KernelIdeal.Gen.V_main_arg1 m c

set_option maxHeartbeats 2000000 in
/-- and the reference's gathered negatives. -/
theorem Gk_eq : Gk m c = Gr (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) := by
  show StableHlo.after Cert.KernelIdeal.Gen.hostOps0 (fun b => m (c, b)) (Proc.devRef .tc Cert.KernelIdeal.main_v15) = _
  after_results_simp
  rfl

/-- The rows' totals of the kernel's first output are the reference's sums of its log-ratios over the steps. -/
theorem totals_eq :
    Cert.ReferenceIdeal.Read.val_main_v29 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      = rowTotals (A3 m c) := by
  funext i
  obtain ⟨b, rfl⟩ : ∃ b : Fin 256, i = ix1 b := ⟨i 0, eq_ix1 i⟩
  rw [Cert.ReferenceIdeal.Read.val_main_v29_apply, Cert.KernelIdeal.Value.rowTotals_apply]
  refine congrArg (Ideal.ofBits .f32 0x00000000#32 + ·) (Finset.sum_congr rfl fun k _ => ?_)
  have e : Cert.ReferenceIdeal.Read.idx_main_v29 (ix1 b) k = ix2 k b :=
    funext fun a => Fin.ext (by match a with | ⟨0, _⟩ => rfl | ⟨1, _⟩ => rfl)
  rw [e, Cert.ReferenceIdeal.RefValue.v28_eq, ← Pk_eq m c, ← Gk_eq m c]
  show step (Pk m c) (Qk m c) (Gk m c) k b = _
  rw [Qk_eq m c]
  rfl

/-- The columns' totals of the kernel's second output are the reference's sums of its marks over the rows. -/
theorem counts_eq :
    Cert.ReferenceIdeal.Read.val_main_v39 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      = colTotals (A4 m c) := by
  funext i
  obtain ⟨j, rfl⟩ : ∃ j : Fin 12, i = ix1 j := ⟨i 0, eq_ix1 i⟩
  rw [Cert.ReferenceIdeal.Read.val_main_v39_apply, Cert.KernelIdeal.Value.colTotals_apply]
  refine congrArg (Ideal.ofBits .f32 0x00000000#32 + ·) (Finset.sum_congr rfl fun k _ => ?_)
  have e : Cert.ReferenceIdeal.Read.idx_main_v39 (ix1 j) k = ix2 j k :=
    funext fun a => Fin.ext (by match a with | ⟨0, _⟩ => rfl | ⟨1, _⟩ => rfl)
  rw [e, Cert.ReferenceIdeal.RefValue.v38_eq, ← Pk_eq m c, ← Gk_eq m c]
  show beaten (Pk m c) (Qk m c) (Gk m c) j k = _
  rw [Qk_eq m c]
  rfl

/-- The reference's loss is the kernel program's. -/
theorem loss_eq :
    Cert.ReferenceIdeal.Read.val_main_v33 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      = lossOf (rowTotals (A3 m c)) :=
  (show _ = lossOf (Cert.ReferenceIdeal.Read.val_main_v29 (F := Ideal) _ _ _ _) from rfl).trans
    (congrArg lossOf (totals_eq m c))

end Cert.Proof.Bridge

end
-- ==== Proof.lean ====
/-
  A contrastive loss computed two ways is one loss.

  Both programs take predictions lp [13, 256, 512], positives ps [12, 256, 512] and two integer index arrays, build
  the bank (the first plane of lp followed by ps), gather 128 negative rows per (step, batch row), and form, for
  each of 12 steps t and 256 rows b,
      pos = Σ_d exp (lp[t+1,b,d] · ps[t,b,d]),   neg_n = Σ_d exp (lp[t+1,b,d] · negs[t,b,n,d])   (n < 128),
      step = log (pos / (pos + Σ_n neg_n)),       beaten = 1 if pos > neg_n for every n, else 0;
  the results are the loss Σ_b ((Σ_t step) / 1548) / 256 and, per step, the count Σ_b beaten.
  The reference does this with whole-array operations. The kernel visits 8 rounds of 32 rows × 12 steps: a visit
  takes the negatives in four runs of 32, keeps a running total of the runs' sums and a running minimum of the
  comparison marks, and adds the visit's log-ratio and mark into column t of two [32, 12] row blocks that start
  at zero in each round (every other column receives the value times zero); the blocks fill two [256, 12] arrays,
  which the program then sums along the steps, resp. along the rows.
  Over the extended reals the two agree with no finiteness assumption: sums re-associate, a minimum of 0/1 marks is
  at least one exactly when every mark is one, and x · 0 = 0, x · 1 = x, 0 + x = x hold for every extended real.
  The idealization rewrote nothing, so the middle claim is trivial; the frames are the generated ones, and the
  reference's frame is its generated run with the results dropped.
-/
import proofs.«109785_j58669253263549_2_alg».proof.Defs
import proofs.«109785_j58669253263549_2_alg».proof.Proof.Gen.Kernel
import proofs.«109785_j58669253263549_2_alg».proof.Proof.Gen.Kernel.Skeleton
import proofs.«109785_j58669253263549_2_alg».proof.Proof.Gen.Kernel.Launch
import proofs.«109785_j58669253263549_2_alg».proof.Proof.Gen.Kernel.Points
import proofs.«109785_j58669253263549_2_alg».proof.Proof.Gen.Kernel.Frame
import proofs.«109785_j58669253263549_2_alg».proof.Proof.Gen.KernelIdeal
import proofs.«109785_j58669253263549_2_alg».proof.Proof.Gen.KernelIdeal.Skeleton
import proofs.«109785_j58669253263549_2_alg».proof.Proof.Gen.KernelIdeal.Launch
import proofs.«109785_j58669253263549_2_alg».proof.Proof.Gen.KernelIdeal.Points
import proofs.«109785_j58669253263549_2_alg».proof.Proof.Gen.KernelIdeal.Frame
import proofs.«109785_j58669253263549_2_alg».proof.Proof.Gen.ReferenceIdeal
import proofs.«109785_j58669253263549_2_alg».proof.Proof.Gen.Pre_finite_inputs
import proofs.«109785_j58669253263549_2_alg».proof.Proof.Gen.ReferenceIdeal.Read
import proofs.«109785_j58669253263549_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the loss and the counts of the same arrays: the kernel program's run gives them as
    the totals of its two output arrays, the reference's run as its own stages, and the two are equal entry by
    entry once the arguments agree. -/
theorem algebraic : Cert.algebraic_KernelIdeal_ReferenceIdeal := by
  intro m ρ m' ρ' _ hagree
  refine ⟨fun c => Cert.KernelIdeal.Value.lossOf (Cert.KernelIdeal.Value.rowTotals (Cert.KernelIdeal.Value.A3 m c)),
    fun c => Cert.KernelIdeal.Value.colTotals (Cert.KernelIdeal.Value.A4 m c), Cert.KernelIdeal.Value.run m ρ, ?_⟩
  refine (θ_run Cert.ReferenceIdeal.defs _ _).mono (fun r h c => ?_) (Cert.ReferenceIdeal.Value.run (F := Ideal) m' ρ')
  obtain ⟨h33, h39, k0, k1, k2, k3⟩ := h c
  obtain ⟨g0, g1, g2, g3⟩ := hagree c
  refine ⟨h33.trans ?_, h39.trans ?_, k0, k1, k2, k3⟩
  · rw [Cert.ReferenceIdeal.Read.val_main_v33_eq, g0, g1, g2, g3]
    exact Bridge.loss_eq m c
  · rw [Cert.ReferenceIdeal.Read.val_main_v39_eq, g0, g1, g2, g3]
    exact Bridge.counts_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
